-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x24564x81 : Shape := ⟨3, ![32, 24564, 81]⟩
abbrev S32x24564x4 : Shape := ⟨3, ![32, 24564, 4]⟩
abbrev S24564x4 : Shape := ⟨2, ![24564, 4]⟩
abbrev S_ : Shape := ⟨0, ![]⟩

class Facts : Prop where
  bcast_S_S32x24564x81 : S_.BroadcastsInDim S32x24564x81 (![] : Fin 0 → Fin S32x24564x81.rank)
  reducesTo_S32x24564x81_S_d0_1_2 : S32x24564x81.ReducesTo [0, 1, 2] S_
  h_S_ : 0 < S_.numel
  bcast_S_S32x24564x4 : S_.BroadcastsInDim S32x24564x4 (![] : Fin 0 → Fin S32x24564x4.rank)
  reducesTo_S32x24564x4_S_d0_1_2 : S32x24564x4.ReducesTo [0, 1, 2] S_
  bcast_S_S24564x4 : S_.BroadcastsInDim S24564x4 (![] : Fin 0 → Fin S24564x4.rank)
  reducesTo_S24564x4_S_d0_1 : S24564x4.ReducesTo [0, 1] S_

variable [Facts]

def fn {F : FTy → Type} [FloatOps F] (main_arg0 : FVec F S32x24564x81 .f32) (main_arg1 : FVec F S32x24564x4 .f32) (main_arg2 : FVec F S24564x4 .f32) : IVec S_ 1 :=
  let main_v0 : FVec F S32x24564x81 .f32 := Host.absf main_arg0
  let main_cst : FVec F S_ .f32 := constant S_ .f32 0x7F800000#32
  let main_v1 : FVec F S32x24564x81 .f32 := broadcastInDim S32x24564x81 ![] bcast_S_S32x24564x81 main_cst
  let main_v2 : IVec S32x24564x81 1 := cmpf .olt main_v0 main_v1
  let main_c : IVec S_ 1 := constantI S_ 1 1#1
  let main_v3 : IVec S_ 1 := (fun x v => Host.reduce IntOp.andi x v reducesTo_S32x24564x81_S_d0_1_2 h_S_) main_v2 main_c
  let main_v4 : FVec F S32x24564x4 .f32 := Host.absf main_arg1
  let main_cst_0 : FVec F S_ .f32 := constant S_ .f32 0x7F800000#32
  let main_v5 : FVec F S32x24564x4 .f32 := broadcastInDim S32x24564x4 ![] bcast_S_S32x24564x4 main_cst_0
  let main_v6 : IVec S32x24564x4 1 := cmpf .olt main_v4 main_v5
  let main_c_1 : IVec S_ 1 := constantI S_ 1 1#1
  let main_v7 : IVec S_ 1 := (fun x v => Host.reduce IntOp.andi x v reducesTo_S32x24564x4_S_d0_1_2 h_S_) main_v6 main_c_1
  let main_v8 : IVec S_ 1 := andi main_v3 main_v7
  let main_v9 : FVec F S24564x4 .f32 := Host.absf main_arg2
  let main_cst_2 : FVec F S_ .f32 := constant S_ .f32 0x7F800000#32
  let main_v10 : FVec F S24564x4 .f32 := broadcastInDim S24564x4 ![] bcast_S_S24564x4 main_cst_2
  let main_v11 : IVec S24564x4 1 := cmpf .olt main_v9 main_v10
  let main_c_3 : IVec S_ 1 := constantI S_ 1 1#1
  let main_v12 : IVec S_ 1 := (fun x v => Host.reduce IntOp.andi x v reducesTo_S24564x4_S_d0_1 h_S_) main_v11 main_c_3
  let main_v13 : IVec S_ 1 := andi main_v8 main_v12
  main_v13
-- ==== Kernel.lean ====
abbrev S32x24564x81 : Shape := ⟨3, ![32, 24564, 81]⟩
abbrev S32x24564x4 : Shape := ⟨3, ![32, 24564, 4]⟩
abbrev S24564x4 : Shape := ⟨2, ![24564, 4]⟩
abbrev S4x1536x81 : Shape := ⟨3, ![4, 1536, 81]⟩
abbrev S4x1536x4 : Shape := ⟨3, ![4, 1536, 4]⟩
abbrev S1536x4 : Shape := ⟨2, ![1536, 4]⟩
abbrev S4x1536 : Shape := ⟨2, ![4, 1536]⟩
abbrev S4x1536x1 : Shape := ⟨3, ![4, 1536, 1]⟩
abbrev S1536x2 : Shape := ⟨2, ![1536, 2]⟩
abbrev S1x1536x2 : Shape := ⟨3, ![1, 1536, 2]⟩
abbrev S4x1536x2 : Shape := ⟨3, ![4, 1536, 2]⟩

abbrev nBuf : Space → Nat
  | .hbm => 5
  | .vmem => 10
  | .smem => 0
  | _ => 0

abbrev bufTy : (tb : Table) → Fin (tcTables nBuf tb) → BufTy
  | .hbm, ⟨0, _⟩ => ⟨S32x24564x81, .f32⟩
  | .hbm, ⟨1, _⟩ => ⟨S32x24564x4, .f32⟩
  | .hbm, ⟨2, _⟩ => ⟨S24564x4, .f32⟩
  | .hbm, ⟨3, _⟩ => ⟨S32x24564x81, .f32⟩
  | .hbm, ⟨4, _⟩ => ⟨S32x24564x4, .f32⟩
  | .local _ .vmem, ⟨0, _⟩ => ⟨S4x1536x81, .f32⟩
  | .local _ .vmem, ⟨1, _⟩ => ⟨S4x1536x81, .f32⟩
  | .local _ .vmem, ⟨2, _⟩ => ⟨S4x1536x4, .f32⟩
  | .local _ .vmem, ⟨3, _⟩ => ⟨S4x1536x4, .f32⟩
  | .local _ .vmem, ⟨4, _⟩ => ⟨S1536x4, .f32⟩
  | .local _ .vmem, ⟨5, _⟩ => ⟨S1536x4, .f32⟩
  | .local _ .vmem, ⟨6, _⟩ => ⟨S4x1536x81, .f32⟩
  | .local _ .vmem, ⟨7, _⟩ => ⟨S4x1536x81, .f32⟩
  | .local _ .vmem, ⟨8, _⟩ => ⟨S4x1536x4, .f32⟩
  | .local _ .vmem, ⟨9, _⟩ => ⟨S4x1536x4, .f32⟩
  | _, _ => ⟨S32x24564x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1536x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1536x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1536x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1536x81 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1536x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S4x1536x81_S4x1536x81_0_0_0 : ∀ a, (![0, 0, 0] : Fin 3 → Nat) a + S4x1536x81.size a ≤ S4x1536x81.size a
  h_S4x1536x81 : 0 < S4x1536x81.numel
  reduces_S4x1536x81_S4x1536 : S4x1536x81.Reduces [2] S4x1536
  shapeCasts_S4x1536_S4x1536x1 : S4x1536.ShapeCasts S4x1536x1
  broadcasts_S4x1536x1_S4x1536x81 : S4x1536x1.Broadcasts S4x1536x81
  inb_S4x1536x4_S4x1536x4_0_0_0 : ∀ a, (![0, 0, 0] : Fin 3 → Nat) a + S4x1536x4.size a ≤ S4x1536x4.size a
  h_S4x1536x4 : 0 < S4x1536x4.numel
  inb_S1536x4_S1536x4_0_0 : ∀ a, (![0, 0] : Fin 2 → Nat) a + S1536x4.size a ≤ S1536x4.size a
  h_S1536x4 : 0 < S1536x4.numel
  slices_S1536x4_o0_0_S1536x2 : S1536x4.Slices ![0, 0] S1536x2
  shapeCasts_S1536x2_S1x1536x2 : S1536x2.ShapeCasts S1x1536x2
  slices_S1536x4_o0_2_S1536x2 : S1536x4.Slices ![0, 2] S1536x2
  slices_S4x1536x4_o0_0_0_S4x1536x2 : S4x1536x4.Slices ![0, 0, 0] S4x1536x2
  broadcasts_S1x1536x2_S4x1536x2 : S1x1536x2.Broadcasts S4x1536x2
  slices_S4x1536x4_o0_0_2_S4x1536x2 : S4x1536x4.Slices ![0, 0, 2] S4x1536x2
  concatenates_S4x1536x2_S4x1536x2_S4x1536x4_d2 : Shape.Concatenates [S4x1536x2, S4x1536x2] S4x1536x4 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4x1536x81.size a < S32x24564x81.size a
  hwx0_0 : ∀ i : grid0.Coords, EltTy.bits .f32 = 32 ∨ (Rect.unit (s := S32x24564x81) (fun a => cc0_transform_0 i a * S4x1536x81.size a) (fun a => (Pipeline.Clip.of (cc0_transform_0 i a) (S4x1536x81.size a) (S32x24564x81.size a)).extent (S4x1536x81.size a)) fun a => Pipeline.Clip.inb (Pipeline.Clip.ok_of (hstart0_0 i a))).WholeWords (EltTy.packing .f32)
  hwxs0_0 : ∀ i : grid0.Coords, EltTy.bits .f32 = 32 ∨ (Rect.unit (s := S4x1536x81) (fun _ => 0) (fun a => (Pipeline.Clip.of (cc0_transform_0 i a) (S4x1536x81.size a) (S32x24564x81.size a)).extent (S4x1536x81.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4x1536x4.size a < S32x24564x4.size a
  hwx0_1 : ∀ i : grid0.Coords, EltTy.bits .f32 = 32 ∨ (Rect.unit (s := S32x24564x4) (fun a => cc0_transform_1 i a * S4x1536x4.size a) (fun a => (Pipeline.Clip.of (cc0_transform_1 i a) (S4x1536x4.size a) (S32x24564x4.size a)).extent (S4x1536x4.size a)) fun a => Pipeline.Clip.inb (Pipeline.Clip.ok_of (hstart0_1 i a))).WholeWords (EltTy.packing .f32)
  hwxs0_1 : ∀ i : grid0.Coords, EltTy.bits .f32 = 32 ∨ (Rect.unit (s := S4x1536x4) (fun _ => 0) (fun a => (Pipeline.Clip.of (cc0_transform_1 i a) (S4x1536x4.size a) (S32x24564x4.size a)).extent (S4x1536x4.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1536x4.size a < S24564x4.size a
  hwx0_2 : ∀ i : grid0.Coords, EltTy.bits .f32 = 32 ∨ (Rect.unit (s := S24564x4) (fun a => cc0_transform_2 i a * S1536x4.size a) (fun a => (Pipeline.Clip.of (cc0_transform_2 i a) (S1536x4.size a) (S24564x4.size a)).extent (S1536x4.size a)) fun a => Pipeline.Clip.inb (Pipeline.Clip.ok_of (hstart0_2 i a))).WholeWords (EltTy.packing .f32)
  hwxs0_2 : ∀ i : grid0.Coords, EltTy.bits .f32 = 32 ∨ (Rect.unit (s := S1536x4) (fun _ => 0) (fun a => (Pipeline.Clip.of (cc0_transform_2 i a) (S1536x4.size a) (S24564x4.size a)).extent (S1536x4.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S4x1536x81.size a < S32x24564x81.size a
  hwx0_3 : ∀ i : grid0.Coords, EltTy.bits .f32 = 32 ∨ (Rect.unit (s := S32x24564x81) (fun a => cc0_transform_3 i a * S4x1536x81.size a) (fun a => (Pipeline.Clip.of (cc0_transform_3 i a) (S4x1536x81.size a) (S32x24564x81.size a)).extent (S4x1536x81.size a)) fun a => Pipeline.Clip.inb (Pipeline.Clip.ok_of (hstart0_3 i a))).WholeWords (EltTy.packing .f32)
  hwxs0_3 : ∀ i : grid0.Coords, EltTy.bits .f32 = 32 ∨ (Rect.unit (s := S4x1536x81) (fun _ => 0) (fun a => (Pipeline.Clip.of (cc0_transform_3 i a) (S4x1536x81.size a) (S32x24564x81.size a)).extent (S4x1536x81.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S4x1536x4.size a < S32x24564x4.size a
  hwx0_4 : ∀ i : grid0.Coords, EltTy.bits .f32 = 32 ∨ (Rect.unit (s := S32x24564x4) (fun a => cc0_transform_4 i a * S4x1536x4.size a) (fun a => (Pipeline.Clip.of (cc0_transform_4 i a) (S4x1536x4.size a) (S32x24564x4.size a)).extent (S4x1536x4.size a)) fun a => Pipeline.Clip.inb (Pipeline.Clip.ok_of (hstart0_4 i a))).WholeWords (EltTy.packing .f32)
  hwxs0_4 : ∀ i : grid0.Coords, EltTy.bits .f32 = 32 ∨ (Rect.unit (s := S4x1536x4) (fun _ => 0) (fun a => (Pipeline.Clip.of (cc0_transform_4 i a) (S4x1536x4.size a) (S32x24564x4.size a)).extent (S4x1536x4.size a)) fun a => (Nat.zero_add _).trans_le (Pipeline.Clip.extent_le (Pipeline.Clip.ok_of (hstart0_4 i a)))).WholeWords (EltTy.packing .f32)

variable [Facts₀]

abbrev win0_0 : Pipeline.Window sig grid0 :=
  Pipeline.Window.ofSpecClip (Memref.whole main_arg0) S4x1536x81.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S4x1536x4.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S1536x4.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0_0) S4x1536x81.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v0_1) S4x1536x4.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x24564x81 : Shape := ⟨3, ![32, 24564, 81]⟩
abbrev S32x24564x4 : Shape := ⟨3, ![32, 24564, 4]⟩
abbrev S24564x4 : Shape := ⟨2, ![24564, 4]⟩
abbrev S_ : Shape := ⟨0, ![]⟩
abbrev S32x24564 : Shape := ⟨2, ![32, 24564]⟩
abbrev S32x24564x1 : Shape := ⟨3, ![32, 24564, 1]⟩
abbrev S1x24564x4 : Shape := ⟨3, ![1, 24564, 4]⟩
abbrev S32x24564x2 : Shape := ⟨3, ![32, 24564, 2]⟩
abbrev S1x24564x2 : Shape := ⟨3, ![1, 24564, 2]⟩

abbrev nBuf : Space → Nat
  | .hbm => 42
  | .vmem => 0
  | .smem => 0
  | _ => 0

abbrev bufTy : (tb : Table) → Fin (tcTables nBuf tb) → BufTy
  | .hbm, ⟨0, _⟩ => ⟨S32x24564x81, .f32⟩
  | .hbm, ⟨1, _⟩ => ⟨S32x24564x4, .f32⟩
  | .hbm, ⟨2, _⟩ => ⟨S24564x4, .f32⟩
  | .hbm, ⟨3, _⟩ => ⟨S_, .f32⟩
  | .hbm, ⟨4, _⟩ => ⟨S32x24564, .f32⟩
  | .hbm, ⟨5, _⟩ => ⟨S_, .f32⟩
  | .hbm, ⟨6, _⟩ => ⟨S32x24564, .f32⟩
  | .hbm, ⟨7, _⟩ => ⟨S32x24564, .f32⟩
  | .hbm, ⟨8, _⟩ => ⟨S32x24564x1, .f32⟩
  | .hbm, ⟨9, _⟩ => ⟨S32x24564x81, .f32⟩
  | .hbm, ⟨10, _⟩ => ⟨S32x24564x81, .f32⟩
  | .hbm, ⟨11, _⟩ => ⟨S32x24564x81, .f32⟩
  | .hbm, ⟨12, _⟩ => ⟨S_, .f32⟩
  | .hbm, ⟨13, _⟩ => ⟨S32x24564, .f32⟩
  | .hbm, ⟨14, _⟩ => ⟨S32x24564x1, .f32⟩
  | .hbm, ⟨15, _⟩ => ⟨S32x24564x81, .f32⟩
  | .hbm, ⟨16, _⟩ => ⟨S32x24564x81, .f32⟩
  | .hbm, ⟨17, _⟩ => ⟨S1x24564x4, .f32⟩
  | .hbm, ⟨18, _⟩ => ⟨S32x24564x2, .f32⟩
  | .hbm, ⟨19, _⟩ => ⟨S_, .f32⟩
  | .hbm, ⟨20, _⟩ => ⟨S32x24564x2, .f32⟩
  | .hbm, ⟨21, _⟩ => ⟨S32x24564x2, .f32⟩
  | .hbm, ⟨22, _⟩ => ⟨S1x24564x2, .f32⟩
  | .hbm, ⟨23, _⟩ => ⟨S32x24564x2, .f32⟩
  | .hbm, ⟨24, _⟩ => ⟨S32x24564x2, .f32⟩
  | .hbm, ⟨25, _⟩ => ⟨S1x24564x2, .f32⟩
  | .hbm, ⟨26, _⟩ => ⟨S32x24564x2, .f32⟩
  | .hbm, ⟨27, _⟩ => ⟨S32x24564x2, .f32⟩
  | .hbm, ⟨28, _⟩ => ⟨S32x24564x2, .f32⟩
  | .hbm, ⟨29, _⟩ => ⟨S_, .f32⟩
  | .hbm, ⟨30, _⟩ => ⟨S32x24564x2, .f32⟩
  | .hbm, ⟨31, _⟩ => ⟨S32x24564x2, .f32⟩
  | .hbm, ⟨32, _⟩ => ⟨S32x24564x2, .f32⟩
  | .hbm, ⟨33, _⟩ => ⟨S1x24564x2, .f32⟩
  | .hbm, ⟨34, _⟩ => ⟨S32x24564x2, .f32⟩
  | .hbm, ⟨35, _⟩ => ⟨S32x24564x2, .f32⟩
  | .hbm, ⟨36, _⟩ => ⟨S_, .f32⟩
  | .hbm, ⟨37, _⟩ => ⟨S32x24564x2, .f32⟩
  | .hbm, ⟨38, _⟩ => ⟨S32x24564x2, .f32⟩
  | .hbm, ⟨39, _⟩ => ⟨S32x24564x2, .f32⟩
  | .hbm, ⟨40, _⟩ => ⟨S32x24564x2, .f32⟩
  | .hbm, ⟨41, _⟩ => ⟨S32x24564x4, .f32⟩
  | _, _ => ⟨S32x24564x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  reducesTo_S32x24564x81_S32x24564_d2 : S32x24564x81.ReducesTo [2] S32x24564
  h_S_ : 0 < S_.numel
  bcast_S_S32x24564 : S_.BroadcastsInDim S32x24564 (![] : Fin 0 → Fin S32x24564.rank)
  bcast_S32x24564_S32x24564x1_0_1 : S32x24564.BroadcastsInDim S32x24564x1 (![0, 1] : Fin 2 → Fin S32x24564x1.rank)
  bcast_S32x24564x1_S32x24564x81_0_1_2 : S32x24564x1.BroadcastsInDim S32x24564x81 (![0, 1, 2] : Fin 3 → Fin S32x24564x81.rank)
  bcast_S24564x4_S1x24564x4_1_2 : S24564x4.BroadcastsInDim S1x24564x4 (![1, 2] : Fin 2 → Fin S1x24564x4.rank)
  slices_S32x24564x4_S32x24564x2_0_0_0 : S32x24564x4.Slices ![0, 0, 0] S32x24564x2
  bcast_S_S32x24564x2 : S_.BroadcastsInDim S32x24564x2 (![] : Fin 0 → Fin S32x24564x2.rank)
  slices_S1x24564x4_S1x24564x2_0_0_2 : S1x24564x4.Slices ![0, 0, 2] S1x24564x2
  bcast_S1x24564x2_S32x24564x2_0_1_2 : S1x24564x2.BroadcastsInDim S32x24564x2 (![0, 1, 2] : Fin 3 → Fin S32x24564x2.rank)
  slices_S1x24564x4_S1x24564x2_0_0_0 : S1x24564x4.Slices ![0, 0, 0] S1x24564x2
  slices_S32x24564x4_S32x24564x2_0_0_2 : S32x24564x4.Slices ![0, 0, 2] S32x24564x2
  concatenates_S32x24564x2_S32x24564x2_S32x24564x4_d2 : Shape.Concatenates [S32x24564x2, S32x24564x2] S32x24564x4 2

variable [Facts₀]

class Facts : Prop extends Facts₀ where

variable [Facts]
-- ==== Proof.KernelBody.lean ====
import proofs.«161695_j51161650430689_2_alg».proof.Proof.Gen.Kernel.Frame
import proofs.«161695_j51161650430689_2_alg».proof.Proof.Gen.Kernel.Skeleton
import Idealize.ShloMosaic.Lib.Pipeline.FrameBody
import Idealize.ShloMosaic.Lib.Ring
import Idealize.ShloMosaic.Lib.Tactic

/-!
# The body of the kernel at one grid point

The kernel's body reads its three input staging blocks whole — a [4, 1536, 81] block of logits, a [4, 1536, 4] block of
box regressions and a [1536, 4] block of priors —, and overwrites its two output staging blocks whole: the first with the
row-wise softmax of the logits block, the second with the decoded boxes. It also reads each output block once before
overwriting it; what it finds there is used nowhere. This module states that as one triple, for any contents of the
five blocks and at any float instance: the three inputs are left as found, and each output block ends holding the one
whole-block store's payload, a function of the input blocks alone.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The body's accesses: each the whole block -/

abbrev rLogits : Rect S4x1536x81 := Rect.unit (s := S4x1536x81) ![0, 0, 0] S4x1536x81.size inb_S4x1536x81_S4x1536x81_0_0_0
abbrev rBoxes : Rect S4x1536x4 := Rect.unit (s := S4x1536x4) ![0, 0, 0] S4x1536x4.size inb_S4x1536x4_S4x1536x4_0_0_0
abbrev rPriors : Rect S1536x4 := Rect.unit (s := S1536x4) ![0, 0] S1536x4.size inb_S1536x4_S1536x4_0_0

/-! ## What the body leaves in each output block -/

/-- The scores block after the body: its one whole-block store, the softmax payload of the logits block. -/
def outScores (x0 : Vec F S4x1536x81 .f32) : Vec F S4x1536x81 .f32 :=
  View.canon [⟨rLogits, k0_pay1 (View.ld x0 rLogits)⟩]

/-- The boxes block after the body: its one whole-block store, the decode payload of the regressions and priors blocks. -/
def outBoxes (x1 : Vec F S4x1536x4 .f32) (x2 : Vec F S1536x4 .f32) : Vec F S4x1536x4 .f32 :=
  View.canon [⟨rBoxes, k0_pay2 (View.ld x1 rBoxes) (View.ld x2 rPriors)⟩]

/-- A whole-block store covers the block. -/
theorem coverScores (p0 : Vec F S4x1536x81 .f32) (y : S4x1536x81.Idx) :
    ∃ pc ∈ ([⟨rLogits, p0⟩] : List (View.Piece (Elt F) S4x1536x81 .f32)), y ∈ pc.1.set :=
  View.cover_of_tiled [⟨rLogits, p0⟩] S4x1536x81.size (by rfl) y

theorem coverBoxes (p0 : Vec F S4x1536x4 .f32) (y : S4x1536x4.Idx) :
    ∃ pc ∈ ([⟨rBoxes, p0⟩] : List (View.Piece (Elt F) S4x1536x4 .f32)), y ∈ pc.1.set :=
  View.cover_of_tiled [⟨rBoxes, p0⟩] S4x1536x4.size (by rfl) y

/-! ## The body's triple -/

set_option maxHeartbeats 1000000 in
/-- The body on five whole staging blocks, the inputs at contents `x0 x1 x2` and the outputs at anything, runs without
    a fault to the inputs as they were and the outputs at `outScores x0` and `outBoxes x1 x2`. -/
theorem sound_kernel (c : Dev nD) (E : Set ℕ) (i : grid0.Coords)
    (arg2 : Memref sig .tc .vmem S4x1536x81 .f32) (harg2 : arg2.IsWhole) (arg3 : Memref sig .tc .vmem S4x1536x4 .f32) (harg3 : arg3.IsWhole)
    (arg4 : Memref sig .tc .vmem S1536x4 .f32) (harg4 : arg4.IsWhole) (arg5 : Memref sig .tc .vmem S4x1536x81 .f32) (harg5 : arg5.IsWhole)
    (arg6 : Memref sig .tc .vmem S4x1536x4 .f32) (harg6 : arg6.IsWhole)
    (x0 : Vec F S4x1536x81 .f32) (x1 : Vec F S4x1536x4 .f32) (x2 : Vec F S1536x4 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outScores x0) ∗ owns (c : Thread nD τ) arg6 fullShare (outBoxes x1 x2)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverScores _)
  · iexists _; isplitr
    swap; · iexact H4
    ipureintro
    exact View.read_writes_eq_canon _ _ _ (coverBoxes _)

end Cert.Kernel.Body

end
-- ==== Proof.KernelFrame.lean ====
import proofs.«161695_j51161650430689_2_alg».proof.Proof.KernelBody
import Idealize.ShloMosaic.Lib.Pipeline.Kit

/-!
# The kernel runs to the end and leaves its arguments as they were

Every window's blocks are cut at the array's end along the axis of 24564 rows (sixteen blocks of 1536 rows overhang it by
twelve), so a staging block arrives holding the array's rows on its leading part and words nothing names on the rest.
For the frame nothing need be said of what the body computes from them: each window's staging block is handed to the body
at whatever it holds and taken back at whatever the body left. The body faults nowhere whatever the blocks hold, the
three argument arrays are only ever read, and so they end as they began.
-/

set_option maxRecDepth 16384

noncomputable section

namespace Cert.Kernel.FrameR

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data, relational: the arrays as the region finds them; of what the body leaves in a staging block,
    nothing; the class's invariant; nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

set_option maxHeartbeats 1000000 in
/-- The body at any point, on whatever the five current staging blocks hold. -/
theorem body_obligation (c : Dev nD) : (rdat (F := F) m c).BodyObligation (defs₀ (F := F)) Variants.none () Set.univ := fun t Y _ => by
  rw [bigSep_W0, bigSep_W0]
  rw [show (rdat m c).Φ t.succ = (rdat m c).Φ t.castSucc from rfl,
    show (rdat m c).owesAt () t.succ = (rdat m c).owesAt () t.castSucc from rfl]
  change _ ⊢ wp frame (wpE (defs₀ (F := F)) Variants.none c none) Set.univ (bodyAt0 t) _
  unfold bodyAt0
  iintro ⟨HΦ, Ho, H0, H1, H2, H3, H4⟩
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (Y 0) (Y 1) (Y 2) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (outScores (Y 0)); isplitr; · ipureintro; trivial
    iexact H3
  · iexists (outBoxes (Y 1) (Y 2)); isplitr; · ipureintro; trivial
    iexact H4

set_option backward.isDefEq.respectTransparency.types false in
/-- Every weakly fair execution of @main terminates, and every final state has each windowed array at contents it may
    hold after the write-backs. -/
theorem run_main : θ_run defs (onTc (τ := τ) (main (F := F))) (s₀ m ρ) (RDat.FramePost cfg0 (rdat m) (V m)) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- An argument array is never written: after the run it holds what it held. -/
theorem kept (c : Dev nD) (w : Fin cfg0.W) (hw : (cfg0.win w).isOut = false)
    (G : Buf (Elt F) ((cfg0.win w).arr.view.loc (c.tc : Thread nD τ))) (h : (rdat m c).ArrAt w cfg0.N G) :
    G = V m c (Pipeline.arrRef spec0 w) := by
  rw [(rdat m c).ArrAt_in w hw] at h; exact h

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨kept m c 0 rfl _ ((h c).1 0), kept m c 1 rfl _ ((h c).1 1), kept m c 2 rfl _ ((h c).1 2)⟩)
    (run_main m ρ)

end Cert.Kernel.FrameR

end
-- ==== Proof.IdealBody.lean ====
import proofs.«161695_j51161650430689_2_alg».proof.Proof.Gen.KernelIdeal.Frame
import proofs.«161695_j51161650430689_2_alg».proof.Proof.Gen.KernelIdeal.Skeleton
import Idealize.ShloMosaic.Lib.Pipeline.FrameBody
import Idealize.ShloMosaic.Lib.Ring
import Idealize.ShloMosaic.Lib.Tactic

/-!
# The body of the kernel at one grid point

The kernel's body reads its three input staging blocks whole — a [4, 1536, 81] block of logits, a [4, 1536, 4] block of
box regressions and a [1536, 4] block of priors —, and overwrites its two output staging blocks whole: the first with the
row-wise softmax of the logits block, the second with the decoded boxes. It also reads each output block once before
overwriting it; what it finds there is used nowhere. This module states that as one triple, for any contents of the
five blocks and at any float instance: the three inputs are left as found, and each output block ends holding the one
whole-block store's payload, a function of the input blocks alone.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The body's accesses: each the whole block -/

abbrev rLogits : Rect S4x1536x81 := Rect.unit (s := S4x1536x81) ![0, 0, 0] S4x1536x81.size inb_S4x1536x81_S4x1536x81_0_0_0
abbrev rBoxes : Rect S4x1536x4 := Rect.unit (s := S4x1536x4) ![0, 0, 0] S4x1536x4.size inb_S4x1536x4_S4x1536x4_0_0_0
abbrev rPriors : Rect S1536x4 := Rect.unit (s := S1536x4) ![0, 0] S1536x4.size inb_S1536x4_S1536x4_0_0

/-! ## What the body leaves in each output block -/

/-- The scores block after the body: its one whole-block store, the softmax payload of the logits block. -/
def outScores (x0 : Vec F S4x1536x81 .f32) : Vec F S4x1536x81 .f32 :=
  View.canon [⟨rLogits, k0_pay1 (View.ld x0 rLogits)⟩]

/-- The boxes block after the body: its one whole-block store, the decode payload of the regressions and priors blocks. -/
def outBoxes (x1 : Vec F S4x1536x4 .f32) (x2 : Vec F S1536x4 .f32) : Vec F S4x1536x4 .f32 :=
  View.canon [⟨rBoxes, k0_pay2 (View.ld x1 rBoxes) (View.ld x2 rPriors)⟩]

/-- A whole-block store covers the block. -/
theorem coverScores (p0 : Vec F S4x1536x81 .f32) (y : S4x1536x81.Idx) :
    ∃ pc ∈ ([⟨rLogits, p0⟩] : List (View.Piece (Elt F) S4x1536x81 .f32)), y ∈ pc.1.set :=
  View.cover_of_tiled [⟨rLogits, p0⟩] S4x1536x81.size (by rfl) y

theorem coverBoxes (p0 : Vec F S4x1536x4 .f32) (y : S4x1536x4.Idx) :
    ∃ pc ∈ ([⟨rBoxes, p0⟩] : List (View.Piece (Elt F) S4x1536x4 .f32)), y ∈ pc.1.set :=
  View.cover_of_tiled [⟨rBoxes, p0⟩] S4x1536x4.size (by rfl) y

/-! ## The body's triple -/

set_option maxHeartbeats 1000000 in
/-- The body on five whole staging blocks, the inputs at contents `x0 x1 x2` and the outputs at anything, runs without
    a fault to the inputs as they were and the outputs at `outScores x0` and `outBoxes x1 x2`. -/
theorem sound_kernel (c : Dev nD) (E : Set ℕ) (i : grid0.Coords)
    (arg2 : Memref sig .tc .vmem S4x1536x81 .f32) (harg2 : arg2.IsWhole) (arg3 : Memref sig .tc .vmem S4x1536x4 .f32) (harg3 : arg3.IsWhole)
    (arg4 : Memref sig .tc .vmem S1536x4 .f32) (harg4 : arg4.IsWhole) (arg5 : Memref sig .tc .vmem S4x1536x81 .f32) (harg5 : arg5.IsWhole)
    (arg6 : Memref sig .tc .vmem S4x1536x4 .f32) (harg6 : arg6.IsWhole)
    (x0 : Vec F S4x1536x81 .f32) (x1 : Vec F S4x1536x4 .f32) (x2 : Vec F S1536x4 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outScores x0) ∗ owns (c : Thread nD τ) arg6 fullShare (outBoxes x1 x2)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverScores _)
  · iexists _; isplitr
    swap; · iexact H4
    ipureintro
    exact View.read_writes_eq_canon _ _ _ (coverBoxes _)

end Cert.KernelIdeal.Body

end
-- ==== Proof.SoftmaxDecodeSpec.lean ====
import Idealize.ShloMosaic.PureOps.Ideal.Laws
import Idealize.ShloMosaic.Lib.ValueIdx

/-!
# Row softmax and box decoding on the extended reals

The two results of the computation, one row at a time and with no array in sight.

* A row of 81 logits `f` goes to `k ↦ e^(f k − M) / ∑ₖ' e^(f k' − M)`, where `M` is the row's maximum taken from the
  float pattern of −∞ as the starting value. The pattern is never evaluated: the only fact used of it is that a
  maximum taken from a starting value is at least that value, so taking the maximum with it once more changes nothing.
* A row of four box regressions `d` and a prior row `p = (cx, cy, w, h)` go to the corner form of the decoded box: with
  centre `c u = d u · α · p (2+u) + p u` and half extent `h u = e^(d (2+u) · β) · p (2+u) · γ` for `u = 0, 1`, the four outputs
  are `c 0 − h 0, c 1 − h 1, c 0 + h 0, c 1 + h 1`. The three scale factors `α β γ` are float patterns shared by both
  programs and stay unevaluated.
-/

noncomputable section

open scoped BigOperators

namespace Cert.SoftmaxDecode

open Idealize.ShloMosaic

/-! ## The softmax of a row -/

/-- The maximum of a row, taken from the float pattern of −∞. -/
def rowMax (f : Fin 81 → EReal) : EReal :=
  (Finset.univ : Finset (Fin 81)).fold max (Ideal.ofBits .f32 0xFF800000#32) f

/-- A maximum taken from a starting value is at least that value. -/
theorem init_le_rowMax (f : Fin 81 → EReal) : Ideal.ofBits .f32 0xFF800000#32 ≤ rowMax f :=
  (Finset.le_fold_max _).mpr (Or.inl le_rfl)

/-- So the maximum of the starting value and the row's maximum is the row's maximum. -/
theorem max_init_rowMax (f : Fin 81 → EReal) : max (Ideal.ofBits .f32 0xFF800000#32) (rowMax f) = rowMax f :=
  max_eq_right (init_le_rowMax f)

/-- A row's exponentials, shifted by the row's maximum. -/
def expShifted (f : Fin 81 → EReal) (k : Fin 81) : EReal := Ideal.exp (f k - rowMax f)

/-- The softmax of a row. -/
def softmaxRow (f : Fin 81 → EReal) (k : Fin 81) : EReal :=
  Ideal.div (expShifted f k) (∑ k' : Fin 81, expShifted f k')

/-! ## The decoded box of a row -/

/-- The scale of the centre offsets, of the size exponents, and the half. -/
def cCentre : EReal := Ideal.ofBits .f32 0x3DCCCCCD#32
def cSize : EReal := Ideal.ofBits .f32 0x3E4CCCCD#32
def cHalf : EReal := Ideal.ofBits .f32 0x3F000000#32

/-- The decoded centre along axis `u`. -/
def centre (d p : Fin 4 → EReal) (u : Fin 2) : EReal :=
  d ⟨u.val, by have := u.isLt; omega⟩ * cCentre * p ⟨2 + u.val, by have := u.isLt; omega⟩ + p ⟨u.val, by have := u.isLt; omega⟩

/-- Half the decoded extent along axis `u`. -/
def halfExtent (d p : Fin 4 → EReal) (u : Fin 2) : EReal :=
  Ideal.exp (d ⟨2 + u.val, by have := u.isLt; omega⟩ * cSize) * p ⟨2 + u.val, by have := u.isLt; omega⟩ * cHalf

/-- The low and the high corner along axis `u`. -/
def lowCorner (d p : Fin 4 → EReal) (u : Fin 2) : EReal := centre d p u - halfExtent d p u
def highCorner (d p : Fin 4 → EReal) (u : Fin 2) : EReal := centre d p u + halfExtent d p u

/-- The decoded box in corner form: the two low corners, then the two high ones. -/
def decodeRow (d p : Fin 4 → EReal) (j : Fin 4) : EReal :=
  if h : j.val < 2 then lowCorner d p ⟨j.val, h⟩ else highCorner d p ⟨j.val - 2, by have := j.isLt; omega⟩

/-! ## The two results as functions of the whole argument arrays -/

open Idealize.ShloMosaic.ValueIdx in
/-- The scores array: at `(B, R, k)` the softmax of row `(B, R)` of the logits array, at lane `k`. -/
def scoresG (A0 : (⟨3, ![32, 24564, 81]⟩ : Shape).Idx → EReal) : (⟨3, ![32, 24564, 81]⟩ : Shape).Idx → EReal := fun I =>
  softmaxRow (fun k' => A0 (ix3 (⟨(I 0).val, (I 0).isLt⟩ : Fin 32) (⟨(I 1).val, (I 1).isLt⟩ : Fin 24564) k')) (⟨(I 2).val, (I 2).isLt⟩ : Fin 81)

open Idealize.ShloMosaic.ValueIdx in
/-- The boxes array: at `(B, R, j)` the decoded box of row `(B, R)` of the regressions array against row `R` of the priors
    array, at column `j`. -/
def boxesG (A1 : (⟨3, ![32, 24564, 4]⟩ : Shape).Idx → EReal) (A2 : (⟨2, ![24564, 4]⟩ : Shape).Idx → EReal) :
    (⟨3, ![32, 24564, 4]⟩ : Shape).Idx → EReal := fun I =>
  decodeRow (fun a => A1 (ix3 (⟨(I 0).val, (I 0).isLt⟩ : Fin 32) (⟨(I 1).val, (I 1).isLt⟩ : Fin 24564) a))
    (fun a => A2 (ix2 (⟨(I 1).val, (I 1).isLt⟩ : Fin 24564) a)) (⟨(I 2).val, (I 2).isLt⟩ : Fin 4)

end Cert.SoftmaxDecode

end
-- ==== Proof.IdealPayload.lean ====
import proofs.«161695_j51161650430689_2_alg».proof.Proof.Gen.KernelIdeal.Skeleton
import proofs.«161695_j51161650430689_2_alg».proof.Proof.SoftmaxDecodeSpec
import Idealize.ShloMosaic.Lib.ValueIdx
import Idealize.ShloMosaic.Lib.Pipeline.Value
import Idealize.ShloMosaic.PureOps.Ideal.Laws

/-!
# What the body stores, one element at a time

At the extended reals the two whole-block stores of the body are read at an index `(b, r, ·)` of their block:
the scores block holds the softmax of row `(b, r)` of the logits block, and the boxes block the decoded box of
row `(b, r)` of the regressions block against row `r` of the priors block. Each element depends on its own row of the
input blocks and on nothing else of them.
-/

noncomputable section

open scoped BigOperators

namespace Cert.KernelIdeal.Payload

open Cert.KernelIdeal Cert.KernelIdeal.Gen Cert.SoftmaxDecode
open Idealize.ShloMosaic Idealize.ShloMosaic.ValueIdx

/-! ## The softmax payload -/

/-- The lane maximum of every row, kept as a column and spread back over the lanes. -/
def maxSpread (X : FVec Ideal S4x1536x81 .f32) : FVec Ideal S4x1536x81 .f32 :=
  broadcastTo S4x1536x81 (shapeCast S4x1536x1 (multiReduction (F := Ideal) .maximumf [2] S4x1536 X 0xFF800000#32 reduces_S4x1536x81_S4x1536 (.inl rfl) rfl) shapeCasts_S4x1536_S4x1536x1) broadcasts_S4x1536x1_S4x1536x81

/-- The lane sum of every row, kept as a column and spread back over the lanes. -/
def sumSpread (Y : FVec Ideal S4x1536x81 .f32) : FVec Ideal S4x1536x81 .f32 :=
  broadcastTo S4x1536x81 (shapeCast S4x1536x1 (multiReduction (F := Ideal) .add [2] S4x1536 Y 0x00000000#32 reduces_S4x1536x81_S4x1536 (.inl rfl) rfl) shapeCasts_S4x1536_S4x1536x1) broadcasts_S4x1536x1_S4x1536x81

/-- The softmax payload is the quotient of the shifted exponentials by their spread row sums. -/
theorem pay1_eq (X : FVec Ideal S4x1536x81 .f32) :
    k0_pay1 (F := Ideal) X = divf (exp (subf X (maxSpread X))) (sumSpread (exp (subf X (maxSpread X)))) := rfl

/-- A column spread over the lanes, read at `(b, r, k)`, is the column at `(b, r)`. -/
theorem spread_apply (Z : FVec Ideal S4x1536 .f32) (b : Fin 4) (r : Fin 1536) (k : Fin 81) :
    broadcastTo S4x1536x81 (shapeCast S4x1536x1 Z shapeCasts_S4x1536_S4x1536x1) broadcasts_S4x1536x1_S4x1536x81 (ix3 b r k)
      = Z (ix2 b r) := by
  refine (broadcastTo_apply _ broadcasts_S4x1536x1_S4x1536x81 (ix3 b r k) (ix3 b r (0 : Fin 1)) (fun a => ?_)).trans ?_
  · match a with
    | ⟨0, _⟩ => show b.val = if (4 : Nat) = 1 then 0 else b.val; rw [if_neg (by decide)]
    | ⟨1, _⟩ => show r.val = if (1536 : Nat) = 1 then 0 else r.val; rw [if_neg (by decide)]
    | ⟨2, _⟩ => show 0 = if (1 : Nat) = 1 then 0 else k.val; rw [if_pos rfl]
  refine shapeCast_apply Z shapeCasts_S4x1536_S4x1536x1 (ix3 b r (0 : Fin 1)) (ix2 b r) ?_
  rw [Shape.rowMajor_val_two, Shape.rowMajor_val_three]
  show b.val * 1536 + r.val = (b.val * 1536 + r.val) * 1 + 0
  omega

/-- Row `(b, r)` of a block, as a family over the lanes, is the block along the reduced axis at `(b, r)`. -/
theorem lift_row (X : FVec Ideal S4x1536x81 .f32) (b : Fin 4) (r : Fin 1536) :
    (X ∘ reduces_S4x1536x81_S4x1536.lift (ix2 b r) : Fin 81 → EReal) = fun k' => X (ix3 b r k') :=
  funext fun k' => congrArg X (funext fun a => Fin.ext (by match a with | ⟨0, _⟩ => rfl | ⟨1, _⟩ => rfl | ⟨2, _⟩ => rfl))

theorem maxSpread_apply (X : FVec Ideal S4x1536x81 .f32) (b : Fin 4) (r : Fin 1536) (k : Fin 81) :
    maxSpread X (ix3 b r k) = rowMax (fun k' => X (ix3 b r k')) := by
  unfold maxSpread
  refine (spread_apply _ b r k).trans ?_
  refine (Ideal.multiReduction_maximumf_single X 0xFF800000#32 reduces_S4x1536x81_S4x1536 (.inl rfl) rfl (ix2 b r)).trans ?_
  unfold rowMax
  exact congrArg (fun g : Fin 81 → EReal => (Finset.univ : Finset (Fin 81)).fold max (Ideal.ofBits .f32 0xFF800000#32) g) (lift_row X b r)

theorem sumSpread_apply (Y : FVec Ideal S4x1536x81 .f32) (b : Fin 4) (r : Fin 1536) (k : Fin 81) :
    sumSpread Y (ix3 b r k) = ∑ k' : Fin 81, Y (ix3 b r k') := by
  unfold sumSpread
  refine (spread_apply _ b r k).trans ?_
  refine (Ideal.multiReduction_add_single Y 0x00000000#32 reduces_S4x1536x81_S4x1536 (.inl rfl) rfl (ix2 b r)).trans ?_
  exact congrArg (fun g : Fin 81 → EReal => ∑ k' : Fin 81, g k') (lift_row Y b r)

/-- The shifted exponentials of a block at `(b, r, k)`. -/
theorem expStage_apply (X : FVec Ideal S4x1536x81 .f32) (b : Fin 4) (r : Fin 1536) (k : Fin 81) :
    exp (subf X (maxSpread X)) (ix3 b r k) = expShifted (fun k' => X (ix3 b r k')) k := by
  show Ideal.exp (X (ix3 b r k) - maxSpread X (ix3 b r k)) = _
  rw [maxSpread_apply]; rfl

/-- THE SCORES PAYLOAD at an index: the softmax of the index's row of the block. -/
theorem pay1_apply (X : FVec Ideal S4x1536x81 .f32) (b : Fin 4) (r : Fin 1536) (k : Fin 81) :
    k0_pay1 (F := Ideal) X (ix3 b r k) = softmaxRow (fun k' => X (ix3 b r k')) k := by
  rw [pay1_eq]
  show Ideal.div (exp (subf X (maxSpread X)) (ix3 b r k)) (sumSpread (exp (subf X (maxSpread X))) (ix3 b r k)) = _
  rw [sumSpread_apply, expStage_apply]
  unfold softmaxRow
  exact congrArg (Ideal.div _) (Finset.sum_congr rfl fun k' _ => expStage_apply X b r k')

/-! ## The decode payload -/

/-- The first two and the last two columns of the regressions block. -/
def regLow (D : FVec Ideal S4x1536x4 .f32) : FVec Ideal S4x1536x2 .f32 :=
  extractStridedSlice S4x1536x2 ![0, 0, 0] D slices_S4x1536x4_o0_0_0_S4x1536x2
def regHigh (D : FVec Ideal S4x1536x4 .f32) : FVec Ideal S4x1536x2 .f32 :=
  extractStridedSlice S4x1536x2 ![0, 0, 2] D slices_S4x1536x4_o0_0_2_S4x1536x2

/-- The first two (centre) and the last two (size) columns of the priors block, spread over the batch axis. -/
def priorLow (P : FVec Ideal S1536x4 .f32) : FVec Ideal S4x1536x2 .f32 :=
  broadcastTo S4x1536x2 (shapeCast S1x1536x2 (extractStridedSlice S1536x2 ![0, 0] P slices_S1536x4_o0_0_S1536x2) shapeCasts_S1536x2_S1x1536x2) broadcasts_S1x1536x2_S4x1536x2
def priorHigh (P : FVec Ideal S1536x4 .f32) : FVec Ideal S4x1536x2 .f32 :=
  broadcastTo S4x1536x2 (shapeCast S1x1536x2 (extractStridedSlice S1536x2 ![0, 2] P slices_S1536x4_o0_2_S1536x2) shapeCasts_S1536x2_S1x1536x2) broadcasts_S1x1536x2_S4x1536x2

/-- The decoded centres and half extents of a block. -/
def centres (D : FVec Ideal S4x1536x4 .f32) (P : FVec Ideal S1536x4 .f32) : FVec Ideal S4x1536x2 .f32 :=
  addf (mulf (mulf (regLow D) (broadcast S4x1536x2 (Scalar.ofBits (F := Ideal) .f32 0x3DCCCCCD#32))) (priorHigh P)) (priorLow P)
def halves (D : FVec Ideal S4x1536x4 .f32) (P : FVec Ideal S1536x4 .f32) : FVec Ideal S4x1536x2 .f32 :=
  mulf (mulf (exp (mulf (regHigh D) (broadcast S4x1536x2 (Scalar.ofBits (F := Ideal) .f32 0x3E4CCCCD#32)))) (priorHigh P))
    (broadcast S4x1536x2 (Scalar.ofBits (F := Ideal) .f32 0x3F000000#32))

/-- The decode payload is the low corners beside the high corners. -/
theorem pay2_eq (D : FVec Ideal S4x1536x4 .f32) (P : FVec Ideal S1536x4 .f32) :
    k0_pay2 (F := Ideal) D P
      = concatenate S4x1536x4 2 [⟨S4x1536x2, subf (centres D P) (halves D P)⟩, ⟨S4x1536x2, addf (centres D P) (halves D P)⟩]
          concatenates_S4x1536x2_S4x1536x2_S4x1536x4_d2 := rfl

/-- Column `u` and column `2 + u` of a row of four. -/
abbrev lo (u : Fin 2) : Fin 4 := ⟨u.val, by have := u.isLt; omega⟩
abbrev hi (u : Fin 2) : Fin 4 := ⟨2 + u.val, by have := u.isLt; omega⟩

theorem regLow_apply (D : FVec Ideal S4x1536x4 .f32) (b : Fin 4) (r : Fin 1536) (u : Fin 2) :
    regLow D (ix3 b r u) = D (ix3 b r (lo u)) :=
  extractStridedSlice_apply ![0, 0, 0] D slices_S4x1536x4_o0_0_0_S4x1536x2 (ix3 b r u) (ix3 b r (lo u)) (fun a => match a with
    | ⟨0, _⟩ => by show b.val = 0 + b.val; omega
    | ⟨1, _⟩ => by show r.val = 0 + r.val; omega
    | ⟨2, _⟩ => by show u.val = 0 + u.val; omega)

theorem regHigh_apply (D : FVec Ideal S4x1536x4 .f32) (b : Fin 4) (r : Fin 1536) (u : Fin 2) :
    regHigh D (ix3 b r u) = D (ix3 b r (hi u)) :=
  extractStridedSlice_apply ![0, 0, 2] D slices_S4x1536x4_o0_0_2_S4x1536x2 (ix3 b r u) (ix3 b r (hi u)) (fun a => match a with
    | ⟨0, _⟩ => by show b.val = 0 + b.val; omega
    | ⟨1, _⟩ => by show r.val = 0 + r.val; omega
    | ⟨2, _⟩ => by show 2 + u.val = 2 + u.val; omega)

/-- A [1536, 2] array given a leading unit axis and spread over the batch axis, read at `(b, r, u)`, is the array at `(r, u)`. -/
theorem batchSpread_apply (Q : FVec Ideal S1536x2 .f32) (b : Fin 4) (r : Fin 1536) (u : Fin 2) :
    broadcastTo S4x1536x2 (shapeCast S1x1536x2 Q shapeCasts_S1536x2_S1x1536x2) broadcasts_S1x1536x2_S4x1536x2 (ix3 b r u) = Q (ix2 r u) := by
  refine (broadcastTo_apply _ broadcasts_S1x1536x2_S4x1536x2 (ix3 b r u) (ix3 (0 : Fin 1) r u) (fun a => ?_)).trans ?_
  · match a with
    | ⟨0, _⟩ => show 0 = if (1 : Nat) = 1 then 0 else b.val; rw [if_pos rfl]
    | ⟨1, _⟩ => show r.val = if (1536 : Nat) = 1 then 0 else r.val; rw [if_neg (by decide)]
    | ⟨2, _⟩ => show u.val = if (2 : Nat) = 1 then 0 else u.val; rw [if_neg (by decide)]
  refine shapeCast_apply Q shapeCasts_S1536x2_S1x1536x2 (ix3 (0 : Fin 1) r u) (ix2 r u) ?_
  rw [Shape.rowMajor_val_two, Shape.rowMajor_val_three]
  show r.val * 2 + u.val = (0 * 1536 + r.val) * 2 + u.val
  omega

theorem priorLow_apply (P : FVec Ideal S1536x4 .f32) (b : Fin 4) (r : Fin 1536) (u : Fin 2) :
    priorLow P (ix3 b r u) = P (ix2 r (lo u)) := by
  unfold priorLow
  refine (batchSpread_apply _ b r u).trans ?_
  exact extractStridedSlice_apply ![0, 0] P slices_S1536x4_o0_0_S1536x2 (ix2 r u) (ix2 r (lo u)) (fun a => match a with
    | ⟨0, _⟩ => by show r.val = 0 + r.val; omega
    | ⟨1, _⟩ => by show u.val = 0 + u.val; omega)

theorem priorHigh_apply (P : FVec Ideal S1536x4 .f32) (b : Fin 4) (r : Fin 1536) (u : Fin 2) :
    priorHigh P (ix3 b r u) = P (ix2 r (hi u)) := by
  unfold priorHigh
  refine (batchSpread_apply _ b r u).trans ?_
  exact extractStridedSlice_apply ![0, 2] P slices_S1536x4_o0_2_S1536x2 (ix2 r u) (ix2 r (hi u)) (fun a => match a with
    | ⟨0, _⟩ => by show r.val = 0 + r.val; omega
    | ⟨1, _⟩ => by show 2 + u.val = 2 + u.val; omega)

theorem centres_apply (D : FVec Ideal S4x1536x4 .f32) (P : FVec Ideal S1536x4 .f32) (b : Fin 4) (r : Fin 1536) (u : Fin 2) :
    centres D P (ix3 b r u) = centre (fun a => D (ix3 b r a)) (fun a => P (ix2 r a)) u := by
  show regLow D (ix3 b r u) * Ideal.ofBits .f32 0x3DCCCCCD#32 * priorHigh P (ix3 b r u) + priorLow P (ix3 b r u) = _
  rw [regLow_apply, priorHigh_apply, priorLow_apply]; rfl

theorem halves_apply (D : FVec Ideal S4x1536x4 .f32) (P : FVec Ideal S1536x4 .f32) (b : Fin 4) (r : Fin 1536) (u : Fin 2) :
    halves D P (ix3 b r u) = halfExtent (fun a => D (ix3 b r a)) (fun a => P (ix2 r a)) u := by
  show Ideal.exp (regHigh D (ix3 b r u) * Ideal.ofBits .f32 0x3E4CCCCD#32) * priorHigh P (ix3 b r u) * Ideal.ofBits .f32 0x3F000000#32 = _
  rw [regHigh_apply, priorHigh_apply]; rfl

/-- The boxes payload in its first two columns: the low corners. -/
theorem pay2_apply_low (D : FVec Ideal S4x1536x4 .f32) (P : FVec Ideal S1536x4 .f32) (b : Fin 4) (r : Fin 1536) (u : Fin 2) :
    k0_pay2 (F := Ideal) D P (ix3 b r (lo u)) = lowCorner (fun a => D (ix3 b r a)) (fun a => P (ix2 r a)) u := by
  rw [pay2_eq]
  refine (concatenate_pair_apply_left 2 _ _ concatenates_S4x1536x2_S4x1536x2_S4x1536x4_d2 (ix3 b r (lo u)) rfl (ix3 b r u) (fun a => ?_)).trans ?_
  · match a with
    | ⟨0, _⟩ => rfl
    | ⟨1, _⟩ => rfl
    | ⟨2, _⟩ => rfl
  show centres D P (ix3 b r u) - halves D P (ix3 b r u) = _
  rw [centres_apply, halves_apply]; rfl

/-- The boxes payload in its last two columns: the high corners. -/
theorem pay2_apply_high (D : FVec Ideal S4x1536x4 .f32) (P : FVec Ideal S1536x4 .f32) (b : Fin 4) (r : Fin 1536) (u : Fin 2) :
    k0_pay2 (F := Ideal) D P (ix3 b r (hi u)) = highCorner (fun a => D (ix3 b r a)) (fun a => P (ix2 r a)) u := by
  rw [pay2_eq]
  refine (concatenate_pair_apply_right 2 _ _ concatenates_S4x1536x2_S4x1536x2_S4x1536x4_d2 (ix3 b r (hi u)) rfl rfl (ix3 b r u)
    (fun a ha => ?_) ?_).trans ?_
  · match a with
    | ⟨0, _⟩ => rfl
    | ⟨1, _⟩ => rfl
    | ⟨2, _⟩ => exact absurd rfl ha
  · show u.val + 2 = 2 + u.val; omega
  show centres D P (ix3 b r u) + halves D P (ix3 b r u) = _
  rw [centres_apply, halves_apply]; rfl

/-- THE BOXES PAYLOAD at an index: the decoded box of the index's row of the regressions block against its row of the
    priors block. -/
theorem pay2_apply (D : FVec Ideal S4x1536x4 .f32) (P : FVec Ideal S1536x4 .f32) (b : Fin 4) (r : Fin 1536) (j : Fin 4) :
    k0_pay2 (F := Ideal) D P (ix3 b r j) = decodeRow (fun a => D (ix3 b r a)) (fun a => P (ix2 r a)) j := by
  unfold decodeRow
  by_cases h : j.val < 2
  · rw [dif_pos h]; exact pay2_apply_low D P b r ⟨j.val, h⟩
  · rw [dif_neg h]
    have hj : j = hi ⟨j.val - 2, by have := j.isLt; omega⟩ := Fin.ext (by show j.val = 2 + (j.val - 2); omega)
    exact (congrArg (fun j' => k0_pay2 (F := Ideal) D P (ix3 b r j')) hj).trans (pay2_apply_high D P b r ⟨j.val - 2, by have := j.isLt; omega⟩)

end Cert.KernelIdeal.Payload

end
-- ==== Proof.IdealRun.lean ====
import proofs.«161695_j51161650430689_2_alg».proof.Proof.IdealBody
import proofs.«161695_j51161650430689_2_alg».proof.Proof.IdealPayload
import Idealize.ShloMosaic.Lib.Pipeline.Kit
import Idealize.ShloMosaic.Lib.Pipeline.Value

/-!
# The idealized kernel's run, with what each staging block holds named

Along the axis of 24564 rows the sixteen blocks of 1536 rows overhang the arrays by twelve rows, so at the last block
of that axis a fetch fills only the block's leading 1524 rows and the rest of the staging block holds values nothing
names; everywhere else a block is filled whole. After the body the proof data names each input's staging block as its
array block filled out with zeros, and each output's as the body's payload of those. What the body really leaves
differs from that only past the array's end: every element the body stores depends on its own row of the input blocks
alone (the softmax of a row of logits; the decoded box of a row of regressions and the row's prior), a row inside the
array is filled from the array whatever lies below it, and a write-back moves only the rows inside the array. That is
all the library's obligation asks of a window whose blocks may overhang.
-/

set_option maxRecDepth 16384

noncomputable section

namespace Cert.KernelIdeal.Run

open Cert.KernelIdeal Cert.KernelIdeal.Gen Cert.KernelIdeal.Body Cert.KernelIdeal.Payload Cert.SoftmaxDecode
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## A whole-block store's payload is what the block holds -/

theorem hz3 : (![0, 0, 0] : Fin 3 → Nat) = fun _ => 0 := funext fun a => by fin_cases a <;> rfl
theorem hz2 : (![0, 0] : Fin 2 → Nat) = fun _ => 0 := funext fun a => by fin_cases a <;> rfl

theorem outScores_eq (Z : Vec Ideal S4x1536x81 .f32) : outScores Z = k0_pay1 (F := Ideal) Z := by
  unfold outScores
  rw [View.canon_unit_zero hz3]
  simp only [View.ld_unit_zero (S := S4x1536x81) hz3]

theorem outBoxes_eq (Z1 : Vec Ideal S4x1536x4 .f32) (Z2 : Vec Ideal S1536x4 .f32) : outBoxes Z1 Z2 = k0_pay2 (F := Ideal) Z1 Z2 := by
  unfold outBoxes
  rw [View.canon_unit_zero hz3]
  simp only [View.ld_unit_zero (S := S4x1536x4) hz3, View.ld_unit_zero (S := S1536x4) hz2]

/-! ## The proof data -/

/-- An input window's array block at a point, filled out with zeros to a whole staging block. -/
def zblk0 (c : Dev nD) (t : Fin cfg0.N) : Vec Ideal S4x1536x81 .f32 :=
  win0_0.fill (grid0.coords t) (fun _ => Scalar.ofBits (F := Ideal) .f32 0#32) (iblk m c 0 t)
def zblk1 (c : Dev nD) (t : Fin cfg0.N) : Vec Ideal S4x1536x4 .f32 :=
  win0_1.fill (grid0.coords t) (fun _ => Scalar.ofBits (F := Ideal) .f32 0#32) (iblk m c 1 t)
def zblk2 (c : Dev nD) (t : Fin cfg0.N) : Vec Ideal S1536x4 .f32 :=
  win0_2.fill (grid0.coords t) (fun _ => Scalar.ofBits (F := Ideal) .f32 0#32) (iblk m c 2 t)

/-- The proof data on core `c`: the arrays as the region finds them; after the body each input's staging block at its
    array block filled out with zeros and each output's at the payload of those; the class's invariant; nothing owed;
    full shares. -/
def dats (_ : Fin 1) (c : Dev nD) : Dat τ (Elt Ideal) Unit ℕ (UR sig nD τ) ℕ cfg0 c where
  A w := V m c (Pipeline.arrRef spec0 w)
  after w t := match w with
    | ⟨0, _⟩ => zblk0 m c t
    | ⟨1, _⟩ => zblk1 m c t
    | ⟨2, _⟩ => zblk2 m c t
    | ⟨3, _⟩ => outScores (zblk0 m c t)
    | ⟨4, _⟩ => outBoxes (zblk1 m c t) (zblk2 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = zblk0 m c t := by dsimp only [dats]
theorem after0_1 (c : Dev nD) (t : Fin cfg0.N) : (dats m 0 c).after 1 t = zblk1 m c t := by dsimp only [dats]
theorem after0_2 (c : Dev nD) (t : Fin cfg0.N) : (dats m 0 c).after 2 t = zblk2 m c t := by dsimp only [dats]
theorem after0_3 (c : Dev nD) (t : Fin cfg0.N) : (dats m 0 c).after 3 t = outScores (zblk0 m c t) := by dsimp only [dats]
theorem after0_4 (c : Dev nD) (t : Fin cfg0.N) : (dats m 0 c).after 4 t = outBoxes (zblk1 m c t) (zblk2 m c t) := by dsimp only [dats]

/-- Every input is fetched at every point: its staging block arrives holding the array block on the rows the fetch
    fills and `d` elsewhere. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl
theorem before0_2 (c : Dev nD) (t : Fin cfg0.N) (d) :
    (dats m 0 c).before 2 t d = win0_2.fill (grid0.coords t) d (iblk m c 2 t) := by
  unfold Dat.before; rw [if_pos (fetch0_2 t)]; rfl

/-! ## An element the body stores depends on its own row of the input blocks -/

/-- Two fillings of one array block agree at every index the fetch fills. -/
theorem fill_agree {α : Type} (w : Window sig grid0) (i : grid0.Coords) (d d' : w.block.Idx → α) (g : (w.xblock i).Idx → α)
    (J : w.block.Idx) (h : ∀ a, (J a).val < w.xsize i a) : w.fill i d g J = w.fill i d' g J := by
  have hm := (w.moved_iff i J).mpr h
  unfold Pipeline.Window.fill; rw [dif_pos hm, dif_pos hm]

/-- The lanes, and the four columns of a box, are never cut: only the axis of rows is. -/
theorem lanes_whole : ∀ t : Fin grid0.N, win0_0.xsize (grid0.coords t) 2 = 81 ∧ win0_1.xsize (grid0.coords t) 2 = 4
    ∧ win0_2.xsize (grid0.coords t) 1 = 4 := by decide +kernel

/-- The scores payload of two blocks that agree on a row agrees on the row. -/
theorem pay1_congr_row (X Y : FVec Ideal S4x1536x81 .f32) (b : Fin 4) (r : Fin 1536) (h : ∀ k', X (ix3 b r k') = Y (ix3 b r k'))
    (k : Fin 81) : k0_pay1 (F := Ideal) X (ix3 b r k) = k0_pay1 (F := Ideal) Y (ix3 b r k) := by
  rw [pay1_apply, pay1_apply, show (fun k' => X (ix3 b r k')) = fun k' => Y (ix3 b r k') from funext h]

/-- The boxes payload likewise, of regressions blocks that agree on a row and priors blocks that agree on the row's prior. -/
theorem pay2_congr_row (D D' : FVec Ideal S4x1536x4 .f32) (P P' : FVec Ideal S1536x4 .f32) (b : Fin 4) (r : Fin 1536)
    (hD : ∀ a, D (ix3 b r a) = D' (ix3 b r a)) (hP : ∀ a, P (ix2 r a) = P' (ix2 r a)) (j : Fin 4) :
    k0_pay2 (F := Ideal) D P (ix3 b r j) = k0_pay2 (F := Ideal) D' P' (ix3 b r j) := by
  rw [pay2_apply, pay2_apply, show (fun a => D (ix3 b r a)) = fun a => D' (ix3 b r a) from funext hD,
    show (fun a => P (ix2 r a)) = fun a => P' (ix2 r a) from funext hP]

/-- On the rows a write-back moves, the scores payload does not see how the logits block was filled out. -/
theorem scores_local (t : Fin cfg0.N) (d d' : S4x1536x81.Idx → EReal) (g : (win0_0.xblock (grid0.coords t)).Idx → EReal) :
    win0_3.cut (grid0.coords t) (k0_pay1 (F := Ideal) (win0_0.fill (grid0.coords t) d g))
      = win0_3.cut (grid0.coords t) (k0_pay1 (F := Ideal) (win0_0.fill (grid0.coords t) d' g)) := by
  funext j
  obtain ⟨b, r, k, hJ⟩ : ∃ (b : Fin 4) (r : Fin 1536) (k : Fin 81), win0_3.xinj (grid0.coords t) j = ix3 b r k :=
    ⟨_, _, _, eq_ix3 _⟩
  have hb : b.val < win0_0.xsize (grid0.coords t) 0 := by
    have e : (j 0).val = b.val := congrArg (fun J : S4x1536x81.Idx => (J 0).val) hJ
    have := (j 0).isLt; rw [← e]; exact this
  have hr : r.val < win0_0.xsize (grid0.coords t) 1 := by
    have e : (j 1).val = r.val := congrArg (fun J : S4x1536x81.Idx => (J 1).val) hJ
    have := (j 1).isLt; rw [← e]; exact this
  show k0_pay1 (F := Ideal) _ (win0_3.xinj (grid0.coords t) j) = k0_pay1 (F := Ideal) _ (win0_3.xinj (grid0.coords t) j)
  rw [hJ]
  refine pay1_congr_row _ _ b r (fun k' => ?_) k
  refine fill_agree win0_0 (grid0.coords t) d d' g (ix3 b r k') (fun a => ?_)
  match a with
  | ⟨0, _⟩ => exact hb
  | ⟨1, _⟩ => exact hr
  | ⟨2, _⟩ => show k'.val < win0_0.xsize (grid0.coords t) 2; rw [(lanes_whole t).1]; exact k'.isLt

/-- On the rows a write-back moves, the boxes payload does not see how the regressions and priors blocks were filled out. -/
theorem boxes_local (t : Fin cfg0.N) (d1 d1' : S4x1536x4.Idx → EReal) (g1 : (win0_1.xblock (grid0.coords t)).Idx → EReal)
    (d2 d2' : S1536x4.Idx → EReal) (g2 : (win0_2.xblock (grid0.coords t)).Idx → EReal) :
    win0_4.cut (grid0.coords t) (k0_pay2 (F := Ideal) (win0_1.fill (grid0.coords t) d1 g1) (win0_2.fill (grid0.coords t) d2 g2))
      = win0_4.cut (grid0.coords t) (k0_pay2 (F := Ideal) (win0_1.fill (grid0.coords t) d1' g1) (win0_2.fill (grid0.coords t) d2' g2)) := by
  funext j
  obtain ⟨b, r, q, hJ⟩ : ∃ (b : Fin 4) (r : Fin 1536) (q : Fin 4), win0_4.xinj (grid0.coords t) j = ix3 b r q :=
    ⟨_, _, _, eq_ix3 _⟩
  have hb : b.val < win0_1.xsize (grid0.coords t) 0 := by
    have e : (j 0).val = b.val := congrArg (fun J : S4x1536x4.Idx => (J 0).val) hJ
    have := (j 0).isLt; rw [← e]; exact this
  have hr : r.val < win0_1.xsize (grid0.coords t) 1 := by
    have e : (j 1).val = r.val := congrArg (fun J : S4x1536x4.Idx => (J 1).val) hJ
    have := (j 1).isLt; rw [← e]; exact this
  show k0_pay2 (F := Ideal) _ _ (win0_4.xinj (grid0.coords t) j) = k0_pay2 (F := Ideal) _ _ (win0_4.xinj (grid0.coords t) j)
  rw [hJ]
  refine pay2_congr_row _ _ _ _ b r (fun a => ?_) (fun a => ?_) q
  · refine fill_agree win0_1 (grid0.coords t) d1 d1' g1 (ix3 b r a) (fun ax => ?_)
    match ax with
    | ⟨0, _⟩ => exact hb
    | ⟨1, _⟩ => exact hr
    | ⟨2, _⟩ => show a.val < win0_1.xsize (grid0.coords t) 2; rw [(lanes_whole t).2.1]; exact a.isLt
  · refine fill_agree win0_2 (grid0.coords t) d2 d2' g2 (ix2 r a) (fun ax => ?_)
    match ax with
    | ⟨0, _⟩ => exact hr
    | ⟨1, _⟩ => show a.val < win0_2.xsize (grid0.coords t) 1; rw [(lanes_whole t).2.2]; exact a.isLt

/-! ## The body obligation -/

set_option maxHeartbeats 2000000 in
/-- The body at any point: the three inputs arrive just fetched, filled out with whatever `d` lay below; the body
    leaves them so, and the outputs at the payloads of those; on the rows a transfer moves these are the proof data's
    blocks, which is what the obligation asks of windows whose blocks may overhang. -/
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  change _ ⊢ wp frame (wpE (defs₀ (F := Ideal)) Variants.none c none) Set.univ (bodyAt0 t) _
  unfold bodyAt0
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2]
  iapply (sound_kernel (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_0.fill (grid0.coords t) d0 (iblk m c 0 t)) (win0_1.fill (grid0.coords t) d1 (iblk m c 1 t))
    (win0_2.fill (grid0.coords t) d2 (iblk m c 2 t)) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  -- on the rows a transfer moves, what the buffers hold is what the proof data names
  have h0 : win0_0.cut (grid0.coords t) ((dats m 0 c).after 0 t) = iblk m c 0 t := by rw [after0_0]; exact win0_0.cut_fill _ _ _
  have h1 : win0_1.cut (grid0.coords t) ((dats m 0 c).after 1 t) = iblk m c 1 t := by rw [after0_1]; exact win0_1.cut_fill _ _ _
  have h2 : win0_2.cut (grid0.coords t) ((dats m 0 c).after 2 t) = iblk m c 2 t := by rw [after0_2]; exact win0_2.cut_fill _ _ _
  have h3 : win0_3.cut (grid0.coords t) (outScores (win0_0.fill (grid0.coords t) d0 (iblk m c 0 t)))
      = win0_3.cut (grid0.coords t) ((dats m 0 c).after 3 t) := by
    rw [after0_3, outScores_eq, outScores_eq]; exact scores_local t _ _ _
  have h4 : win0_4.cut (grid0.coords t) (outBoxes (win0_1.fill (grid0.coords t) d1 (iblk m c 1 t)) (win0_2.fill (grid0.coords t) d2 (iblk m c 2 t)))
      = win0_4.cut (grid0.coords t) ((dats m 0 c).after 4 t) := by
    rw [after0_4, outBoxes_eq, outBoxes_eq]; exact boxes_local t _ _ _ _ _ _
  isplitl [H0]
  · iexists d0
    change _ ⊢ owns (c : Thread nD τ) (win0_0.stage (cfg0.slots t 0)) fullShare (win0_0.fill (grid0.coords t) d0 (win0_0.cut (grid0.coords t) ((dats m 0 c).after 0 t)))
    rw [h0]; try iexact H0
  isplitl [H1]
  · iexists d1
    change _ ⊢ owns (c : Thread nD τ) (win0_1.stage (cfg0.slots t 1)) fullShare (win0_1.fill (grid0.coords t) d1 (win0_1.cut (grid0.coords t) ((dats m 0 c).after 1 t)))
    rw [h1]; try iexact H1
  isplitl [H2]
  · iexists d2
    change _ ⊢ owns (c : Thread nD τ) (win0_2.stage (cfg0.slots t 2)) fullShare (win0_2.fill (grid0.coords t) d2 (win0_2.cut (grid0.coords t) ((dats m 0 c).after 2 t)))
    rw [h2]; try iexact H2
  isplitl [H3]
  · iexists (outScores (win0_0.fill (grid0.coords t) d0 (iblk m c 0 t)))
    change _ ⊢ owns (c : Thread nD τ) (win0_3.stage (cfg0.slots t 3)) fullShare (win0_3.fill (grid0.coords t) (outScores (win0_0.fill (grid0.coords t) d0 (iblk m c 0 t))) (win0_3.cut (grid0.coords t) ((dats m 0 c).after 3 t)))
    rw [win0_3.fill_congr_cut (grid0.coords t) h3]; try iexact H3
  · iexists (outBoxes (win0_1.fill (grid0.coords t) d1 (iblk m c 1 t)) (win0_2.fill (grid0.coords t) d2 (iblk m c 2 t)))
    change _ ⊢ owns (c : Thread nD τ) (win0_4.stage (cfg0.slots t 4)) fullShare (win0_4.fill (grid0.coords t) (outBoxes (win0_1.fill (grid0.coords t) d1 (iblk m c 1 t)) (win0_2.fill (grid0.coords t) d2 (iblk m c 2 t))) (win0_4.cut (grid0.coords t) ((dats m 0 c).after 4 t)))
    rw [win0_4.fill_congr_cut (grid0.coords t) h4]; try iexact H4

/-! ## The run and the frame -/

set_option backward.isDefEq.respectTransparency.types false in
/-- Every weakly fair execution of @main terminates, and every final state has every array of the pipeline at what the
    library computes from the proof data. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The idealized kernel runs to the end and leaves its arguments as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Run

end
-- ==== Proof.IdealArrays.lean ====
import proofs.«161695_j51161650430689_2_alg».proof.Proof.IdealRun

/-!
# From the blocks the points write back to the two result arrays

Point `t` of the 8 × 16 grid handles batch rows `4·(t / 16) … 4·(t / 16) + 3` and prior rows `1536·(t % 16) …`, 1536 of
them except at `t % 16 = 15`, where the arrays end after 1524. What it writes back to the scores array is, on exactly
those rows, the row-wise softmax of the logits array, and to the boxes array the decoded boxes of the regressions and
priors arrays: an element the body stores depends on its own row of the staged blocks, and a row inside the array was
fetched from the array. The rows of the 128 points tile both result arrays, so after the run each result array is one
function of the argument arrays, index by index.
-/

set_option maxRecDepth 16384

noncomputable section

namespace Cert.KernelIdeal.Arrays

open Cert.KernelIdeal Cert.KernelIdeal.Gen Cert.KernelIdeal.Body Cert.KernelIdeal.Payload Cert.KernelIdeal.Run Cert.SoftmaxDecode
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-! ## The index maps and the cuts, decided once over the grid -/

/-- Each input's block moves with the output's that reads it; the lane and column block index is zero; the outputs'
    block indices are the point's two coordinates. -/
theorem grid_facts : ∀ t : Fin grid0.N,
    (win0_0.index t 0 = win0_3.index t 0 ∧ win0_0.index t 1 = win0_3.index t 1 ∧ win0_0.index t 2 = 0 ∧ win0_3.index t 2 = 0)
    ∧ (win0_1.index t 0 = win0_4.index t 0 ∧ win0_1.index t 1 = win0_4.index t 1 ∧ win0_1.index t 2 = 0 ∧ win0_4.index t 2 = 0)
    ∧ (win0_2.index t 0 = win0_4.index t 1 ∧ win0_2.index t 1 = 0)
    ∧ (win0_3.index t 0 = t.val / 16 ∧ win0_3.index t 1 = t.val % 16 ∧ win0_4.index t 0 = t.val / 16 ∧ win0_4.index t 1 = t.val % 16) := by
  decide +kernel

/-- What a transfer moves: four batch rows, 1536 prior rows but 1524 at the last block of that axis, all lanes and
    columns; an input's cut is the cut of the output that reads it. -/
theorem size_facts : ∀ t : Fin grid0.N,
    (win0_3.xsize (grid0.coords t) 0 = 4 ∧ win0_3.xsize (grid0.coords t) 1 = (if t.val % 16 = 15 then 1524 else 1536)
      ∧ win0_3.xsize (grid0.coords t) 2 = 81)
    ∧ (win0_4.xsize (grid0.coords t) 0 = 4 ∧ win0_4.xsize (grid0.coords t) 1 = (if t.val % 16 = 15 then 1524 else 1536)
      ∧ win0_4.xsize (grid0.coords t) 2 = 4)
    ∧ (win0_0.xsize (grid0.coords t) 0 = win0_3.xsize (grid0.coords t) 0 ∧ win0_0.xsize (grid0.coords t) 1 = win0_3.xsize (grid0.coords t) 1)
    ∧ (win0_1.xsize (grid0.coords t) 0 = win0_4.xsize (grid0.coords t) 0 ∧ win0_1.xsize (grid0.coords t) 1 = win0_4.xsize (grid0.coords t) 1)
    ∧ win0_2.xsize (grid0.coords t) 0 = win0_4.xsize (grid0.coords t) 1 := by
  decide +kernel

/-! ## A staged input block, read inside the array -/

/-- The logits block at a row the fetch filled is the logits array at that row of the point's rows. -/
theorem zblk0_apply (c : Dev nD) (t : Fin cfg0.N) (b : Fin 4) (r : Fin 1536) (k : Fin 81)
    (hb : b.val < win0_0.xsize (grid0.coords t) 0) (hr : r.val < win0_0.xsize (grid0.coords t) 1)
    (I : S32x24564x81.Idx) (h0 : (I 0).val = win0_0.index t 0 * 4 + b.val) (h1 : (I 1).val = win0_0.index t 1 * 1536 + r.val)
    (h2 : (I 2).val = k.val) : zblk0 m c t (ix3 b r k) = V m c main_arg0 I := by
  have hm : win0_0.moved (grid0.coords t) (ix3 b r k) = true := (win0_0.moved_iff _ _).mpr fun a => by
    match a with
    | ⟨0, _⟩ => exact hb
    | ⟨1, _⟩ => exact hr
    | ⟨2, _⟩ => show k.val < win0_0.xsize (grid0.coords t) 2; rw [(lanes_whole t).1]; exact k.isLt
  unfold zblk0 Pipeline.Window.fill
  rw [dif_pos hm]
  show V m c main_arg0 (((cfg0.win 0).blk t).view.emb _) = V m c main_arg0 I
  refine congrArg (V m c main_arg0) (funext fun a => Fin.ext ?_)
  obtain ⟨⟨-, -, e2, -⟩, -⟩ := grid_facts t
  match a with
  | ⟨0, _⟩ => show win0_0.index t 0 * 4 + 1 * b.val = (I 0).val; omega
  | ⟨1, _⟩ => show win0_0.index t 1 * 1536 + 1 * r.val = (I 1).val; omega
  | ⟨2, _⟩ => show win0_0.index t 2 * 81 + 1 * k.val = (I 2).val; rw [e2]; omega

/-- The regressions block likewise. -/
theorem zblk1_apply (c : Dev nD) (t : Fin cfg0.N) (b : Fin 4) (r : Fin 1536) (a : Fin 4)
    (hb : b.val < win0_1.xsize (grid0.coords t) 0) (hr : r.val < win0_1.xsize (grid0.coords t) 1)
    (I : S32x24564x4.Idx) (h0 : (I 0).val = win0_1.index t 0 * 4 + b.val) (h1 : (I 1).val = win0_1.index t 1 * 1536 + r.val)
    (h2 : (I 2).val = a.val) : zblk1 m c t (ix3 b r a) = V m c main_arg1 I := by
  have hm : win0_1.moved (grid0.coords t) (ix3 b r a) = true := (win0_1.moved_iff _ _).mpr fun ax => by
    match ax with
    | ⟨0, _⟩ => exact hb
    | ⟨1, _⟩ => exact hr
    | ⟨2, _⟩ => show a.val < win0_1.xsize (grid0.coords t) 2; rw [(lanes_whole t).2.1]; exact a.isLt
  unfold zblk1 Pipeline.Window.fill
  rw [dif_pos hm]
  show V m c main_arg1 (((cfg0.win 1).blk t).view.emb _) = V m c main_arg1 I
  refine congrArg (V m c main_arg1) (funext fun ax => Fin.ext ?_)
  obtain ⟨-, ⟨-, -, e2, -⟩, -⟩ := grid_facts t
  match ax with
  | ⟨0, _⟩ => show win0_1.index t 0 * 4 + 1 * b.val = (I 0).val; omega
  | ⟨1, _⟩ => show win0_1.index t 1 * 1536 + 1 * r.val = (I 1).val; omega
  | ⟨2, _⟩ => show win0_1.index t 2 * 4 + 1 * a.val = (I 2).val; rw [e2]; omega

/-- And the priors block. -/
theorem zblk2_apply (c : Dev nD) (t : Fin cfg0.N) (r : Fin 1536) (a : Fin 4)
    (hr : r.val < win0_2.xsize (grid0.coords t) 0)
    (I : S24564x4.Idx) (h0 : (I 0).val = win0_2.index t 0 * 1536 + r.val) (h1 : (I 1).val = a.val) :
    zblk2 m c t (ix2 r a) = V m c main_arg2 I := by
  have hm : win0_2.moved (grid0.coords t) (ix2 r a) = true := (win0_2.moved_iff _ _).mpr fun ax => by
    match ax with
    | ⟨0, _⟩ => exact hr
    | ⟨1, _⟩ => show a.val < win0_2.xsize (grid0.coords t) 1; rw [(lanes_whole t).2.2]; exact a.isLt
  unfold zblk2 Pipeline.Window.fill
  rw [dif_pos hm]
  show V m c main_arg2 (((cfg0.win 2).blk t).view.emb _) = V m c main_arg2 I
  refine congrArg (V m c main_arg2) (funext fun ax => Fin.ext ?_)
  obtain ⟨-, -, ⟨-, e1⟩, -⟩ := grid_facts t
  match ax with
  | ⟨0, _⟩ => show win0_2.index t 0 * 1536 + 1 * r.val = (I 0).val; omega
  | ⟨1, _⟩ => show win0_2.index t 1 * 4 + 1 * a.val = (I 1).val; rw [e1]; omega

/-! ## What a point writes back -/

/-- WHAT POINT `t` WRITES BACK to the scores array is the point's block of the row-wise softmax of the logits array. -/
theorem flushed3_eq (c : Dev nD) (t : Fin cfg0.N) :
    (dats m 0 c).flushed 3 t = ((cfg0.win 3).blk t).view.read (Elt Ideal) (scoresG (V m c main_arg0)) := by
  show (cfg0.win 3).cut (grid0.coords t) ((dats m 0 c).after 3 t) = _
  rw [after0_3, outScores_eq]
  funext j
  obtain ⟨b, r, k, hJ⟩ : ∃ (b : Fin 4) (r : Fin 1536) (k : Fin 81), win0_3.xinj (grid0.coords t) j = ix3 b r k :=
    ⟨_, _, _, eq_ix3 _⟩
  have eb : (j 0).val = b.val := congrArg (fun J : S4x1536x81.Idx => (J 0).val) hJ
  have er : (j 1).val = r.val := congrArg (fun J : S4x1536x81.Idx => (J 1).val) hJ
  have ek : (j 2).val = k.val := congrArg (fun J : S4x1536x81.Idx => (J 2).val) hJ
  obtain ⟨⟨i00, i01, -, i32⟩, -⟩ := grid_facts t
  obtain ⟨-, -, ⟨x0, x1⟩, -⟩ := size_facts t
  have hb : b.val < win0_0.xsize (grid0.coords t) 0 := by rw [x0, ← eb]; exact (j 0).isLt
  have hr : r.val < win0_0.xsize (grid0.coords t) 1 := by rw [x1, ← er]; exact (j 1).isLt
  show k0_pay1 (F := Ideal) (zblk0 m c t) (win0_3.xinj (grid0.coords t) j) = scoresG (V m c main_arg0) (((cfg0.win 3).blk t).view.emb j)
  rw [hJ, pay1_apply]
  unfold scoresG
  have e0 : ((((cfg0.win 3).blk t).view.emb j) 0).val = win0_3.index t 0 * 4 + 1 * (j 0).val := rfl
  have e1 : ((((cfg0.win 3).blk t).view.emb j) 1).val = win0_3.index t 1 * 1536 + 1 * (j 1).val := rfl
  have e2 : ((((cfg0.win 3).blk t).view.emb j) 2).val = win0_3.index t 2 * 81 + 1 * (j 2).val := rfl
  have hk : (⟨((((cfg0.win 3).blk t).view.emb j) 2).val, ((((cfg0.win 3).blk t).view.emb j) 2).isLt⟩ : Fin 81) = k :=
    Fin.ext (by show ((((cfg0.win 3).blk t).view.emb j) 2).val = k.val; rw [e2, i32]; omega)
  rw [hk]
  refine congrArg (fun f => softmaxRow f k) (funext fun k' => ?_)
  refine zblk0_apply m c t b r k' hb hr _ ?_ ?_ rfl
  · show ((((cfg0.win 3).blk t).view.emb j) 0).val = win0_0.index t 0 * 4 + b.val; rw [e0, i00]; omega
  · show ((((cfg0.win 3).blk t).view.emb j) 1).val = win0_0.index t 1 * 1536 + r.val; rw [e1, i01]; omega

/-- WHAT POINT `t` WRITES BACK to the boxes array is the point's block of the decoded boxes of the regressions and
    priors arrays. -/
theorem flushed4_eq (c : Dev nD) (t : Fin cfg0.N) :
    (dats m 0 c).flushed 4 t = ((cfg0.win 4).blk t).view.read (Elt Ideal) (boxesG (V m c main_arg1) (V m c main_arg2)) := by
  show (cfg0.win 4).cut (grid0.coords t) ((dats m 0 c).after 4 t) = _
  rw [after0_4, outBoxes_eq]
  funext j
  obtain ⟨b, r, q, hJ⟩ : ∃ (b : Fin 4) (r : Fin 1536) (q : Fin 4), win0_4.xinj (grid0.coords t) j = ix3 b r q :=
    ⟨_, _, _, eq_ix3 _⟩
  have eb : (j 0).val = b.val := congrArg (fun J : S4x1536x4.Idx => (J 0).val) hJ
  have er : (j 1).val = r.val := congrArg (fun J : S4x1536x4.Idx => (J 1).val) hJ
  have eq : (j 2).val = q.val := congrArg (fun J : S4x1536x4.Idx => (J 2).val) hJ
  obtain ⟨-, ⟨i10, i11, -, i42⟩, ⟨i20, -⟩, -⟩ := grid_facts t
  obtain ⟨-, -, -, ⟨x0, x1⟩, x2⟩ := size_facts t
  have hb : b.val < win0_1.xsize (grid0.coords t) 0 := by rw [x0, ← eb]; exact (j 0).isLt
  have hr : r.val < win0_1.xsize (grid0.coords t) 1 := by rw [x1, ← er]; exact (j 1).isLt
  have hr2 : r.val < win0_2.xsize (grid0.coords t) 0 := by rw [x2, ← er]; exact (j 1).isLt
  show k0_pay2 (F := Ideal) (zblk1 m c t) (zblk2 m c t) (win0_4.xinj (grid0.coords t) j)
    = boxesG (V m c main_arg1) (V m c main_arg2) (((cfg0.win 4).blk t).view.emb j)
  rw [hJ, pay2_apply]
  unfold boxesG
  have e0 : ((((cfg0.win 4).blk t).view.emb j) 0).val = win0_4.index t 0 * 4 + 1 * (j 0).val := rfl
  have e1 : ((((cfg0.win 4).blk t).view.emb j) 1).val = win0_4.index t 1 * 1536 + 1 * (j 1).val := rfl
  have e2 : ((((cfg0.win 4).blk t).view.emb j) 2).val = win0_4.index t 2 * 4 + 1 * (j 2).val := rfl
  have hq : (⟨((((cfg0.win 4).blk t).view.emb j) 2).val, ((((cfg0.win 4).blk t).view.emb j) 2).isLt⟩ : Fin 4) = q :=
    Fin.ext (by show ((((cfg0.win 4).blk t).view.emb j) 2).val = q.val; rw [e2, i42]; omega)
  rw [hq]
  have hD : (fun a => zblk1 m c t (ix3 b r a)) = fun a => V m c main_arg1
      (ix3 (⟨((((cfg0.win 4).blk t).view.emb j) 0).val, ((((cfg0.win 4).blk t).view.emb j) 0).isLt⟩ : Fin 32)
        (⟨((((cfg0.win 4).blk t).view.emb j) 1).val, ((((cfg0.win 4).blk t).view.emb j) 1).isLt⟩ : Fin 24564) a) :=
    funext fun a => by
      refine zblk1_apply m c t b r a hb hr _ ?_ ?_ rfl
      · show ((((cfg0.win 4).blk t).view.emb j) 0).val = win0_1.index t 0 * 4 + b.val; rw [e0, i10]; omega
      · show ((((cfg0.win 4).blk t).view.emb j) 1).val = win0_1.index t 1 * 1536 + r.val; rw [e1, i11]; omega
  have hP : (fun a => zblk2 m c t (ix2 r a)) = fun a => V m c main_arg2
      (ix2 (⟨((((cfg0.win 4).blk t).view.emb j) 1).val, ((((cfg0.win 4).blk t).view.emb j) 1).isLt⟩ : Fin 24564) a) :=
    funext fun a => by
      refine zblk2_apply m c t r a hr2 _ ?_ rfl
      show ((((cfg0.win 4).blk t).view.emb j) 1).val = win0_2.index t 0 * 1536 + r.val; rw [e1, i20]; omega
  rw [hD, hP]

/-! ## The blocks tile the arrays -/

/-- An index of the scores array is in point `t`'s block iff each coordinate is among the rows, or lanes, the point moves. -/
theorem mem_blk3 (t : Fin cfg0.N) (I : S32x24564x81.Idx) :
    I ∈ ((cfg0.win 3).blk t).view.set ↔ ∀ a : Fin 3, win0_3.index t a * S4x1536x81.size a ≤ (I a).val
      ∧ (I a).val < win0_3.index t a * S4x1536x81.size a + win0_3.xsize (grid0.coords t) a := by
  show I ∈ ((View.whole main_v0_0).slice (win0_3.rect t)).set ↔ _
  rw [View.set_slice_whole, Rect.mem_set_unit]
  exact Iff.rfl

theorem mem_blk4 (t : Fin cfg0.N) (I : S32x24564x4.Idx) :
    I ∈ ((cfg0.win 4).blk t).view.set ↔ ∀ a : Fin 3, win0_4.index t a * S4x1536x4.size a ≤ (I a).val
      ∧ (I a).val < win0_4.index t a * S4x1536x4.size a + win0_4.xsize (grid0.coords t) a := by
  show I ∈ ((View.whole main_v0_1).slice (win0_4.rect t)).set ↔ _
  rw [View.set_slice_whole, Rect.mem_set_unit]
  exact Iff.rfl

/-- The point whose rows hold batch row `B` and prior row `R`. -/
def pointOf (B R : Nat) (hB : B < 32) (hR : R < 24564) : Fin cfg0.N := ⟨B / 4 * 16 + R / 1536, by
  have : cfg0.N = 128 := N_0
  rw [this]; omega⟩

/-- Every index of the scores array is in some point's block. -/
theorem cover3 (I : S32x24564x81.Idx) : ∃ t : Fin cfg0.N, (cfg0.win 3).flush t = true ∧ I ∈ ((cfg0.win 3).blk t).view.set := by
  have hB : (I 0).val < 32 := (I 0).isLt
  have hR : (I 1).val < 24564 := (I 1).isLt
  have hK : (I 2).val < 81 := (I 2).isLt
  refine ⟨pointOf (I 0).val (I 1).val hB hR, flush0_3 _, ?_⟩
  rw [mem_blk3]
  obtain ⟨-, -, -, ⟨i0, i1, -, -⟩⟩ := grid_facts (pointOf (I 0).val (I 1).val hB hR)
  obtain ⟨⟨-, -, i2, j2⟩, -⟩ := grid_facts (pointOf (I 0).val (I 1).val hB hR)
  obtain ⟨⟨s0, s1, s2⟩, -⟩ := size_facts (pointOf (I 0).val (I 1).val hB hR)
  have hv : (pointOf (I 0).val (I 1).val hB hR).val = (I 0).val / 4 * 16 + (I 1).val / 1536 := rfl
  intro a
  match a with
  | ⟨0, _⟩ =>
    show win0_3.index _ 0 * 4 ≤ (I 0).val ∧ (I 0).val < win0_3.index _ 0 * 4 + win0_3.xsize _ 0
    rw [i0, s0, hv]; omega
  | ⟨1, _⟩ =>
    show win0_3.index _ 1 * 1536 ≤ (I 1).val ∧ (I 1).val < win0_3.index _ 1 * 1536 + win0_3.xsize _ 1
    rw [i1, s1, hv]
    split <;> omega
  | ⟨2, _⟩ =>
    show win0_3.index _ 2 * 81 ≤ (I 2).val ∧ (I 2).val < win0_3.index _ 2 * 81 + win0_3.xsize _ 2
    rw [j2, s2]; omega

/-- Every index of the boxes array is in some point's block. -/
theorem cover4 (I : S32x24564x4.Idx) : ∃ t : Fin cfg0.N, (cfg0.win 4).flush t = true ∧ I ∈ ((cfg0.win 4).blk t).view.set := by
  have hB : (I 0).val < 32 := (I 0).isLt
  have hR : (I 1).val < 24564 := (I 1).isLt
  have hK : (I 2).val < 4 := (I 2).isLt
  refine ⟨pointOf (I 0).val (I 1).val hB hR, flush0_4 _, ?_⟩
  rw [mem_blk4]
  obtain ⟨-, -, -, ⟨-, -, i0, i1⟩⟩ := grid_facts (pointOf (I 0).val (I 1).val hB hR)
  obtain ⟨-, ⟨-, -, -, j2⟩, -⟩ := grid_facts (pointOf (I 0).val (I 1).val hB hR)
  obtain ⟨-, ⟨s0, s1, s2⟩, -⟩ := size_facts (pointOf (I 0).val (I 1).val hB hR)
  have hv : (pointOf (I 0).val (I 1).val hB hR).val = (I 0).val / 4 * 16 + (I 1).val / 1536 := rfl
  intro a
  match a with
  | ⟨0, _⟩ =>
    show win0_4.index _ 0 * 4 ≤ (I 0).val ∧ (I 0).val < win0_4.index _ 0 * 4 + win0_4.xsize _ 0
    rw [i0, s0, hv]; omega
  | ⟨1, _⟩ =>
    show win0_4.index _ 1 * 1536 ≤ (I 1).val ∧ (I 1).val < win0_4.index _ 1 * 1536 + win0_4.xsize _ 1
    rw [i1, s1, hv]
    split <;> omega
  | ⟨2, _⟩ =>
    show win0_4.index _ 2 * 4 ≤ (I 2).val ∧ (I 2).val < win0_4.index _ 2 * 4 + win0_4.xsize _ 2
    rw [j2, s2]; omega

/-! ## The result arrays after the run -/

/-- THE SCORES ARRAY after the run: the row-wise softmax of the logits array. -/
theorem final3 (c : Dev nD) : (dats m 0 c).arrAt 3 cfg0.N = scoresG (V m c main_arg0) :=
  (dats m 0 c).arrAt_eq_of_cover 3 _ (fun t _ => flushed3_eq m c t) cover3

/-- THE BOXES ARRAY after the run: the decoded boxes of the regressions and priors arrays. -/
theorem final4 (c : Dev nD) : (dats m 0 c).arrAt 4 cfg0.N = boxesG (V m c main_arg1) (V m c main_arg2) :=
  (dats m 0 c).arrAt_eq_of_cover 4 _ (fun t _ => flushed4_eq m c t) cover4

/-- The idealized kernel's run, read: every weakly fair execution terminates with the scores array at the row-wise
    softmax of the logits, the boxes array at the decoded boxes, and the three arguments as they were. -/
theorem run : θ_run defs (onTc (τ := τ) (main (F := Ideal))) ⟨m, fun _ => 0, ρ⟩ fun r => ∀ c : Dev nD,
      r.2.mem ((c.tc : Thread nD τ).loc main_v0_0) = scoresG (m ((c.tc : Thread nD τ).loc main_arg0))
      ∧ r.2.mem ((c.tc : Thread nD τ).loc main_v0_1) = boxesG (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final3 m c), ((h c).1 4).trans (final4 m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2))⟩)
    (run_main m ρ)

end Cert.KernelIdeal.Arrays

end
-- ==== Proof.RefValue.lean ====
import proofs.«161695_j51161650430689_2_alg».proof.Proof.RefReadP
import proofs.«161695_j51161650430689_2_alg».proof.Proof.SoftmaxDecodeSpec
import Idealize.ShloMosaic.Lib.ValueIdx
import Idealize.ShloMosaic.Lib.Pipeline.Value
import Idealize.ShloMosaic.PureOps.Ideal.Laws

/-!
# What the reference computes, one element at a time

At the extended reals the reference's first result is the row-wise softmax of the logits array and its second the
decoded boxes of the regressions and priors arrays — the same two functions the kernel's result arrays end at. The
reference takes each row's maximum from the float pattern of −∞ and then takes the maximum of that with the same
pattern once more; the second maximum changes nothing, a maximum taken from a starting value being at least that value.
Its row sum starts from the pattern of zero, which is the extended real zero.
-/

noncomputable section

open scoped BigOperators

namespace Cert.ReferenceIdeal.RefValue

open Cert.ReferenceIdeal Cert.ReferenceIdeal.Gen Cert.ReferenceIdeal.ReadP Cert.SoftmaxDecode
open Idealize.ShloMosaic Idealize.ShloMosaic.ValueIdx

/-! ## The softmax -/

/-- Row `(B, R)` of the logits array as a family over the lanes, through the reduced axis. -/
theorem lift_row (x0 : FVec Ideal S32x24564x81 .f32) (h : S32x24564x81.Reduces [2] S32x24564) (B : Fin 32) (R : Fin 24564) :
    (x0 ∘ h.lift (ix2 B R) : Fin 81 → EReal) = fun k' => x0 (ix3 B R k') :=
  funext fun k' => congrArg x0 (funext fun a => Fin.ext (by match a with | ⟨0, _⟩ => rfl | ⟨1, _⟩ => rfl | ⟨2, _⟩ => rfl))

/-- The host's maximum over the lanes, at `(B, R)`: the row's maximum. -/
theorem hostMax_apply (x0 : FVec Ideal S32x24564x81 .f32) (B : Fin 32) (R : Fin 24564) :
    val_main_v0 (F := Ideal) x0 (ix2 B R) = rowMax (fun k' => x0 (ix3 B R k')) := by
  unfold val_main_v0
  refine (Host.reduce_eq_fold_single (FloatOps.maximumf (F := Ideal) (φ := .f32)) x0 (val_main_cst (F := Ideal))
    reducesTo_S32x24564x81_S32x24564_d2 (by decide) h_S_ (ix2 B R)).trans ?_
  unfold rowMax
  exact congrArg (fun g : Fin 81 → EReal => (Finset.univ : Finset (Fin 81)).fold max (Ideal.ofBits .f32 0xFF800000#32) g)
    (lift_row x0 _ B R)

/-- The maximum with the starting value once more changes nothing. -/
theorem max_apply (x0 : FVec Ideal S32x24564x81 .f32) (B : Fin 32) (R : Fin 24564) :
    val_main_v2 (F := Ideal) x0 (ix2 B R) = rowMax (fun k' => x0 (ix3 B R k')) := by
  rw [val_main_v2_apply, hostMax_apply, val_main_v1_apply]
  exact max_init_rowMax _

/-- The row maximum kept as a column and spread over the lanes, at `(B, R, k)`. -/
theorem maxSpread_apply (x0 : FVec Ideal S32x24564x81 .f32) (B : Fin 32) (R : Fin 24564) (k : Fin 81) :
    val_main_v4 (F := Ideal) x0 (ix3 B R k) = rowMax (fun k' => x0 (ix3 B R k')) := by
  rw [val_main_v4_apply, val_main_v3_apply]
  have e : idx_main_v3 (idx_main_v4 (ix3 B R k)) = ix2 B R :=
    funext fun a => Fin.ext (by match a with | ⟨0, _⟩ => rfl | ⟨1, _⟩ => rfl)
  rw [e]; exact max_apply x0 B R

/-- The shifted exponentials at `(B, R, k)`. -/
theorem expStage_apply (x0 : FVec Ideal S32x24564x81 .f32) (B : Fin 32) (R : Fin 24564) (k : Fin 81) :
    val_main_v6 (F := Ideal) x0 (ix3 B R k) = expShifted (fun k' => x0 (ix3 B R k')) k := by
  rw [val_main_v6_apply, val_main_v5_apply, maxSpread_apply]; rfl

/-- The row sum kept as a column and spread over the lanes, at `(B, R, k)`. -/
theorem sumSpread_apply (x0 : FVec Ideal S32x24564x81 .f32) (B : Fin 32) (R : Fin 24564) (k : Fin 81) :
    val_main_v9 (F := Ideal) x0 (ix3 B R k) = ∑ k' : Fin 81, expShifted (fun k'' => x0 (ix3 B R k'')) k' := by
  rw [val_main_v9_apply, val_main_v8_apply]
  have e : idx_main_v8 (idx_main_v9 (ix3 B R k)) = ix2 B R :=
    funext fun a => Fin.ext (by match a with | ⟨0, _⟩ => rfl | ⟨1, _⟩ => rfl)
  rw [e, val_main_v7_apply]
  show Ideal.ofBits .f32 0x00000000#32 + _ = _
  rw [Ideal.ofBits_zero_f32, zero_add]
  refine Finset.sum_congr rfl fun k' _ => ?_
  have e' : idx_main_v7 (ix2 B R) k' = ix3 B R k' :=
    funext fun a => Fin.ext (by match a with | ⟨0, _⟩ => rfl | ⟨1, _⟩ => rfl | ⟨2, _⟩ => rfl)
  rw [e']; exact expStage_apply x0 B R k'

/-- THE REFERENCE'S FIRST RESULT is the row-wise softmax of the logits array. -/
theorem scores_eq (x0 : FVec Ideal S32x24564x81 .f32) : val_main_v10 (F := Ideal) x0 = scoresG x0 := by
  funext I
  obtain ⟨B, R, k, rfl⟩ : ∃ (B : Fin 32) (R : Fin 24564) (k : Fin 81), I = ix3 B R k := ⟨_, _, _, eq_ix3 I⟩
  rw [val_main_v10_apply, expStage_apply, sumSpread_apply]
  rfl

/-! ## The decode -/

/-- Column `u` and column `2 + u` of a row of four. -/
abbrev lo (u : Fin 2) : Fin 4 := ⟨u.val, by have := u.isLt; omega⟩
abbrev hi (u : Fin 2) : Fin 4 := ⟨2 + u.val, by have := u.isLt; omega⟩

/-- The first two and the last two columns of the regressions array, at `(B, R, u)`. -/
theorem regLow_apply (x1 : FVec Ideal S32x24564x4 .f32) (B : Fin 32) (R : Fin 24564) (u : Fin 2) :
    val_main_v12 (F := Ideal) x1 (ix3 B R u) = x1 (ix3 B R (lo u)) := by
  rw [val_main_v12_apply]
  exact congrArg x1 (funext fun a => Fin.ext (by match a with | ⟨0, _⟩ => rfl | ⟨1, _⟩ => rfl | ⟨2, _⟩ => rfl))

theorem regHigh_apply (x1 : FVec Ideal S32x24564x4 .f32) (B : Fin 32) (R : Fin 24564) (u : Fin 2) :
    val_main_v21 (F := Ideal) x1 (ix3 B R u) = x1 (ix3 B R (hi u)) := by
  rw [val_main_v21_apply]
  exact congrArg x1 (funext fun a => Fin.ext (by match a with | ⟨0, _⟩ => rfl | ⟨1, _⟩ => rfl | ⟨2, _⟩ => rfl))

/-- The last two columns of the priors array spread over the batch axis (the reference slices them twice), and the
    first two, at `(B, R, u)`. -/
theorem priorHigh_apply (x2 : FVec Ideal S24564x4 .f32) (B : Fin 32) (R : Fin 24564) (u : Fin 2) :
    val_main_v16 (F := Ideal) x2 (ix3 B R u) = x2 (ix2 R (hi u)) := by
  rw [val_main_v16_apply, val_main_v15_apply, val_main_v11_apply]
  exact congrArg x2 (funext fun a => Fin.ext (by match a with | ⟨0, _⟩ => rfl | ⟨1, _⟩ => rfl))

theorem priorHigh'_apply (x2 : FVec Ideal S24564x4 .f32) (B : Fin 32) (R : Fin 24564) (u : Fin 2) :
    val_main_v26 (F := Ideal) x2 (ix3 B R u) = x2 (ix2 R (hi u)) := by
  rw [val_main_v26_apply, val_main_v25_apply, val_main_v11_apply]
  exact congrArg x2 (funext fun a => Fin.ext (by match a with | ⟨0, _⟩ => rfl | ⟨1, _⟩ => rfl))

theorem priorLow_apply (x2 : FVec Ideal S24564x4 .f32) (B : Fin 32) (R : Fin 24564) (u : Fin 2) :
    val_main_v19 (F := Ideal) x2 (ix3 B R u) = x2 (ix2 R (lo u)) := by
  rw [val_main_v19_apply, val_main_v18_apply, val_main_v11_apply]
  exact congrArg x2 (funext fun a => Fin.ext (by match a with | ⟨0, _⟩ => rfl | ⟨1, _⟩ => rfl))

/-- The decoded centres and half extents, at `(B, R, u)`. -/
theorem centres_apply (x1 : FVec Ideal S32x24564x4 .f32) (x2 : FVec Ideal S24564x4 .f32) (B : Fin 32) (R : Fin 24564) (u : Fin 2) :
    val_main_v20 (F := Ideal) x1 x2 (ix3 B R u) = centre (fun a => x1 (ix3 B R a)) (fun a => x2 (ix2 R a)) u := by
  rw [val_main_v20_apply, val_main_v17_apply, val_main_v14_apply, regLow_apply, priorHigh_apply, priorLow_apply, val_main_v13_apply]
  rfl

theorem halves_apply (x1 : FVec Ideal S32x24564x4 .f32) (x2 : FVec Ideal S24564x4 .f32) (B : Fin 32) (R : Fin 24564) (u : Fin 2) :
    val_main_v29 (F := Ideal) x1 x2 (ix3 B R u) = halfExtent (fun a => x1 (ix3 B R a)) (fun a => x2 (ix2 R a)) u := by
  rw [val_main_v29_apply, val_main_v27_apply, val_main_v24_apply, val_main_v23_apply, regHigh_apply, priorHigh'_apply,
    val_main_v22_apply, val_main_v28_apply]
  rfl

/-- The reference's second result in its first two columns: the low corners. -/
theorem boxes_apply_low (x1 : FVec Ideal S32x24564x4 .f32) (x2 : FVec Ideal S24564x4 .f32) (B : Fin 32) (R : Fin 24564) (u : Fin 2) :
    val_main_v32 (F := Ideal) x1 x2 (ix3 B R (lo u)) = lowCorner (fun a => x1 (ix3 B R a)) (fun a => x2 (ix2 R a)) u := by
  unfold val_main_v32
  refine (concatenate_pair_apply_left 2 _ _ concatenates_S32x24564x2_S32x24564x2_S32x24564x4_d2 (ix3 B R (lo u)) rfl (ix3 B R u) (fun a => ?_)).trans ?_
  · match a with
    | ⟨0, _⟩ => rfl
    | ⟨1, _⟩ => rfl
    | ⟨2, _⟩ => rfl
  rw [val_main_v30_apply, centres_apply, halves_apply]; rfl

/-- and in its last two: the high corners. -/
theorem boxes_apply_high (x1 : FVec Ideal S32x24564x4 .f32) (x2 : FVec Ideal S24564x4 .f32) (B : Fin 32) (R : Fin 24564) (u : Fin 2) :
    val_main_v32 (F := Ideal) x1 x2 (ix3 B R (hi u)) = highCorner (fun a => x1 (ix3 B R a)) (fun a => x2 (ix2 R a)) u := by
  unfold val_main_v32
  refine (concatenate_pair_apply_right 2 _ _ concatenates_S32x24564x2_S32x24564x2_S32x24564x4_d2 (ix3 B R (hi u)) rfl rfl (ix3 B R u)
    (fun a ha => ?_) ?_).trans ?_
  · match a with
    | ⟨0, _⟩ => rfl
    | ⟨1, _⟩ => rfl
    | ⟨2, _⟩ => exact absurd rfl ha
  · show u.val + 2 = 2 + u.val; omega
  rw [val_main_v31_apply, centres_apply, halves_apply]; rfl

/-- THE REFERENCE'S SECOND RESULT is the decoded boxes of the regressions and priors arrays. -/
theorem boxes_eq (x1 : FVec Ideal S32x24564x4 .f32) (x2 : FVec Ideal S24564x4 .f32) :
    val_main_v32 (F := Ideal) x1 x2 = boxesG x1 x2 := by
  funext I
  obtain ⟨B, R, j, rfl⟩ : ∃ (B : Fin 32) (R : Fin 24564) (j : Fin 4), I = ix3 B R j := ⟨_, _, _, eq_ix3 I⟩
  show _ = decodeRow (fun a => x1 (ix3 B R a)) (fun a => x2 (ix2 R a)) j
  unfold decodeRow
  by_cases h : j.val < 2
  · rw [dif_pos h]; exact boxes_apply_low x1 x2 B R ⟨j.val, h⟩
  · rw [dif_neg h]
    have hj : j = hi ⟨j.val - 2, by have := j.isLt; omega⟩ := Fin.ext (by show j.val = 2 + (j.val - 2); omega)
    exact (congrArg (fun j' => val_main_v32 (F := Ideal) x1 x2 (ix3 B R j')) hj).trans
      (boxes_apply_high x1 x2 B R ⟨j.val - 2, by have := j.isLt; omega⟩)

end Cert.ReferenceIdeal.RefValue

end
-- ==== Proof.lean ====
/-
  The certificate of a single-shot detection head: from class logits [32, 24564, 81], box regressions [32, 24564, 4] and
  priors [24564, 4] the kernel computes, row by row, the softmax of the logits over the 81 classes and the decoded box
  in corner form, and so does the jnp reference.

  The kernel works on blocks of 4 batch rows by 1536 prior rows on an 8 × 16 grid. Sixteen blocks of 1536 rows overhang
  the 24564 prior rows by twelve: at the last block of that axis a staging block holds, below the array's last 1524 rows,
  values nothing names, and the body computes on them too. Nothing of that reaches the results. Each element the body
  stores — the softmax of a row of logits at a class; a corner of the decoded box of a row of regressions against the row's
  prior — depends on its own row of the staged blocks alone; a row inside the array was fetched from the array; and a
  write-back moves only the rows inside the array.

  * The frame at the word level says only that the body faults nowhere whatever its blocks hold and that the argument
    arrays are only ever read.
  * At the extended reals each staging block after the body is named (an input's array block filled out with zeros, an
    output's the payload of those), the blocks the 128 points write back are the points' rows of one function of the
    argument arrays, and those rows tile the result arrays: the scores end at the row-wise softmax of the logits array
    and the boxes at the decoded boxes of the regressions and priors arrays.
  * The reference's two results are those same two functions. The two programs perform the same operations on every row;
    the one difference is that the reference takes the maximum of each row's maximum with the starting value −∞ once
    more, which changes nothing since a maximum taken from a starting value is at least that value. No finiteness of
    the inputs is used; the float patterns of −∞ and of the three scale factors are shared by both sides and never evaluated.
  * The ideal pass rewrote nothing, so the idealization claim is trivial.
-/
import proofs.«161695_j51161650430689_2_alg».proof.Defs
import proofs.«161695_j51161650430689_2_alg».proof.Proof.Gen.Kernel
import proofs.«161695_j51161650430689_2_alg».proof.Proof.Gen.KernelIdeal
import proofs.«161695_j51161650430689_2_alg».proof.Proof.Gen.ReferenceIdeal
import proofs.«161695_j51161650430689_2_alg».proof.Proof.Gen.Pre_finite_inputs
import proofs.«161695_j51161650430689_2_alg».proof.Proof.KernelFrame
import proofs.«161695_j51161650430689_2_alg».proof.Proof.IdealArrays
import proofs.«161695_j51161650430689_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_k : Cert.frame_Kernel := fun m ρ _ => Cert.Kernel.FrameR.frame (F := Bits) m ρ

/-- So does its reading at the extended reals. -/
theorem frame_ki : Cert.frame_KernelIdeal := fun m ρ _ => Cert.KernelIdeal.Run.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- From memories that agree on the arguments both programs run, the scores to the row-wise softmax of the logits and
    the boxes to the decoded boxes of the regressions and priors. -/
theorem algebraic : Cert.algebraic_KernelIdeal_ReferenceIdeal := by
  intro m ρ m' ρ' _ hagree
  refine ⟨fun c => Cert.SoftmaxDecode.scoresG (m ((c.tc : Thread Cert.KernelIdeal.nD Cert.KernelIdeal.τ).loc Cert.KernelIdeal.main_arg0)),
    fun c => Cert.SoftmaxDecode.boxesG (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Arrays.run m ρ, ?_⟩
  refine (θ_run Cert.ReferenceIdeal.defs _ _).mono (fun _ h c => ⟨?_, ?_, (h c).2.2⟩)
    (Cert.ReferenceIdeal.ValueP.run (F := Ideal) m' ρ')
  · rw [(h c).1, Cert.ReferenceIdeal.ReadP.val_main_v10_eq, Cert.ReferenceIdeal.RefValue.scores_eq, (hagree c).1]
  · rw [(h c).2.1, Cert.ReferenceIdeal.ReadP.val_main_v32_eq, Cert.ReferenceIdeal.RefValue.boxes_eq, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
